-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1022 : Shape := ⟨2, ![50000, 1022]⟩
abbrev S2x160000 : Shape := ⟨2, ![2, 160000]⟩
abbrev S1022x1024 : Shape := ⟨2, ![1022, 1024]⟩
abbrev S1024 : Shape := ⟨1, ![1024]⟩
abbrev S1024x512 : Shape := ⟨2, ![1024, 512]⟩
abbrev S512 : Shape := ⟨1, ![512]⟩
abbrev S512x512 : Shape := ⟨2, ![512, 512]⟩
abbrev S512x75 : Shape := ⟨2, ![512, 75]⟩
abbrev S75 : Shape := ⟨1, ![75]⟩
abbrev S75x11 : Shape := ⟨2, ![75, 11]⟩
abbrev S11 : Shape := ⟨1, ![11]⟩
abbrev S_ : Shape := ⟨0, ![]⟩

class Facts : Prop where
  bcast_S_S50000x1022 : S_.BroadcastsInDim S50000x1022 (![] : Fin 0 → Fin S50000x1022.rank)
  reducesTo_S50000x1022_S_d0_1 : S50000x1022.ReducesTo [0, 1] S_
  h_S_ : 0 < S_.numel
  bcast_S_S1022x1024 : S_.BroadcastsInDim S1022x1024 (![] : Fin 0 → Fin S1022x1024.rank)
  reducesTo_S1022x1024_S_d0_1 : S1022x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x75 : S_.BroadcastsInDim S512x75 (![] : Fin 0 → Fin S512x75.rank)
  reducesTo_S512x75_S_d0_1 : S512x75.ReducesTo [0, 1] S_
  bcast_S_S75 : S_.BroadcastsInDim S75 (![] : Fin 0 → Fin S75.rank)
  reducesTo_S75_S_d0 : S75.ReducesTo [0] S_
  bcast_S_S75x11 : S_.BroadcastsInDim S75x11 (![] : Fin 0 → Fin S75x11.rank)
  reducesTo_S75x11_S_d0_1 : S75x11.ReducesTo [0, 1] S_
  bcast_S_S11 : S_.BroadcastsInDim S11 (![] : Fin 0 → Fin S11.rank)
  reducesTo_S11_S_d0 : S11.ReducesTo [0] S_

variable [Facts]

def fn_part4 {F : FTy → Type} [FloatOps F] (main_arg15 : FVec F S11 .f32) (main_v63 : IVec S_ 1) (main_v67 : IVec S_ 1) : IVec S_ 1 :=
  let main_v68 : IVec S_ 1 := andi main_v63 main_v67
  let main_v69 : FVec F S11 .f32 := Host.absf main_arg15
  let main_cst_26 : FVec F S_ .f32 := constant S_ .f32 0x7F800000#32
  let main_v70 : FVec F S11 .f32 := broadcastInDim S11 ![] bcast_S_S11 main_cst_26
  let main_v71 : IVec S11 1 := cmpf .olt main_v69 main_v70
  let main_c_27 : IVec S_ 1 := constantI S_ 1 1#1
  let main_v72 : IVec S_ 1 := (fun x v => Host.reduce IntOp.andi x v reducesTo_S11_S_d0 h_S_) main_v71 main_c_27
  let main_v73 : IVec S_ 1 := andi main_v68 main_v72
  main_v73

def fn_part3 {F : FTy → Type} [FloatOps F] (main_arg12 : FVec F S512x75 .f32) (main_arg13 : FVec F S75 .f32) (main_arg14 : FVec F S75x11 .f32) (main_arg15 : FVec F S11 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x75 .f32 := Host.absf main_arg12
  let main_cst_20 : FVec F S_ .f32 := constant S_ .f32 0x7F800000#32
  let main_v55 : FVec F S512x75 .f32 := broadcastInDim S512x75 ![] bcast_S_S512x75 main_cst_20
  let main_v56 : IVec S512x75 1 := cmpf .olt main_v54 main_v55
  let main_c_21 : IVec S_ 1 := constantI S_ 1 1#1
  let main_v57 : IVec S_ 1 := (fun x v => Host.reduce IntOp.andi x v reducesTo_S512x75_S_d0_1 h_S_) main_v56 main_c_21
  let main_v58 : IVec S_ 1 := andi main_v53 main_v57
  let main_v59 : FVec F S75 .f32 := Host.absf main_arg13
  let main_cst_22 : FVec F S_ .f32 := constant S_ .f32 0x7F800000#32
  let main_v60 : FVec F S75 .f32 := broadcastInDim S75 ![] bcast_S_S75 main_cst_22
  let main_v61 : IVec S75 1 := cmpf .olt main_v59 main_v60
  let main_c_23 : IVec S_ 1 := constantI S_ 1 1#1
  let main_v62 : IVec S_ 1 := (fun x v => Host.reduce IntOp.andi x v reducesTo_S75_S_d0 h_S_) main_v61 main_c_23
  let main_v63 : IVec S_ 1 := andi main_v58 main_v62
  let main_v64 : FVec F S75x11 .f32 := Host.absf main_arg14
  let main_cst_24 : FVec F S_ .f32 := constant S_ .f32 0x7F800000#32
  let main_v65 : FVec F S75x11 .f32 := broadcastInDim S75x11 ![] bcast_S_S75x11 main_cst_24
  let main_v66 : IVec S75x11 1 := cmpf .olt main_v64 main_v65
  let main_c_25 : IVec S_ 1 := constantI S_ 1 1#1
  let main_v67 : IVec S_ 1 := (fun x v => Host.reduce IntOp.andi x v reducesTo_S75x11_S_d0_1 h_S_) main_v66 main_c_25
  fn_part4 (F := F) main_arg15 main_v63 main_v67

def fn_part2 {F : FTy → Type} [FloatOps F] (main_arg8 : FVec F S512x512 .f32) (main_arg9 : FVec F S512 .f32) (main_arg10 : FVec F S512x512 .f32) (main_arg11 : FVec F S512 .f32) (main_arg12 : FVec F S512x75 .f32) (main_arg13 : FVec F S75 .f32) (main_arg14 : FVec F S75x11 .f32) (main_arg15 : FVec F S11 .f32) (main_v33 : IVec S_ 1) : IVec S_ 1 :=
  let main_v34 : FVec F S512x512 .f32 := Host.absf main_arg8
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg10
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg12 main_arg13 main_arg14 main_arg15 main_v48 main_v49 main_v50

def fn_part1 {F : FTy → Type} [FloatOps F] (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x75 .f32) (main_arg13 : FVec F S75 .f32) (main_arg14 : FVec F S75x11 .f32) (main_arg15 : FVec F S11 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x1022 .f32) (main_arg1 : IVec S2x160000 32) (main_arg2 : FVec F S1022x1024 .f32) (main_arg3 : FVec F S1024 .f32) (main_arg4 : FVec F S1024x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512x75 .f32) (main_arg13 : FVec F S75 .f32) (main_arg14 : FVec F S75x11 .f32) (main_arg15 : FVec F S11 .f32) : IVec S_ 1 :=
  let main_v0 : FVec F S50000x1022 .f32 := Host.absf main_arg0
  let main_cst : FVec F S_ .f32 := constant S_ .f32 0x7F800000#32
  let main_v1 : FVec F S50000x1022 .f32 := broadcastInDim S50000x1022 ![] bcast_S_S50000x1022 main_cst
  let main_v2 : IVec S50000x1022 1 := cmpf .olt main_v0 main_v1
  let main_c : IVec S_ 1 := constantI S_ 1 1#1
  let main_v3 : IVec S_ 1 := (fun x v => Host.reduce IntOp.andi x v reducesTo_S50000x1022_S_d0_1 h_S_) main_v2 main_c
  let main_v4 : FVec F S1022x1024 .f32 := Host.absf main_arg2
  let main_cst_0 : FVec F S_ .f32 := constant S_ .f32 0x7F800000#32
  let main_v5 : FVec F S1022x1024 .f32 := broadcastInDim S1022x1024 ![] bcast_S_S1022x1024 main_cst_0
  let main_v6 : IVec S1022x1024 1 := cmpf .olt main_v4 main_v5
  let main_c_1 : IVec S_ 1 := constantI S_ 1 1#1
  let main_v7 : IVec S_ 1 := (fun x v => Host.reduce IntOp.andi x v reducesTo_S1022x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x512 .f32 := Host.absf main_arg4
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x1022 : Shape := ⟨2, ![50000, 1022]⟩
abbrev S2x160000 : Shape := ⟨2, ![2, 160000]⟩
abbrev S1022x1024 : Shape := ⟨2, ![1022, 1024]⟩
abbrev S1024 : Shape := ⟨1, ![1024]⟩
abbrev S1024x512 : Shape := ⟨2, ![1024, 512]⟩
abbrev S512 : Shape := ⟨1, ![512]⟩
abbrev S512x512 : Shape := ⟨2, ![512, 512]⟩
abbrev S512x75 : Shape := ⟨2, ![512, 75]⟩
abbrev S75 : Shape := ⟨1, ![75]⟩
abbrev S75x11 : Shape := ⟨2, ![75, 11]⟩
abbrev S11 : Shape := ⟨1, ![11]⟩
abbrev S50000 : Shape := ⟨1, ![50000]⟩
abbrev S1x160000 : Shape := ⟨2, ![1, 160000]⟩
abbrev S160000 : Shape := ⟨1, ![160000]⟩
abbrev S210000 : Shape := ⟨1, ![210000]⟩
abbrev S_ : Shape := ⟨0, ![]⟩
abbrev S210000x1 : Shape := ⟨2, ![210000, 1]⟩
abbrev S1x1024 : Shape := ⟨2, ![1, 1024]⟩
abbrev S1x512 : Shape := ⟨2, ![1, 512]⟩
abbrev S1x75 : Shape := ⟨2, ![1, 75]⟩
abbrev S1x11 : Shape := ⟨2, ![1, 11]⟩
abbrev S50000x1024 : Shape := ⟨2, ![50000, 1024]⟩
abbrev S1000x1022 : Shape := ⟨2, ![1000, 1022]⟩
abbrev S1000x1024 : Shape := ⟨2, ![1000, 1024]⟩
abbrev S210000x1024 : Shape := ⟨2, ![210000, 1024]⟩
abbrev S50000x512 : Shape := ⟨2, ![50000, 512]⟩
abbrev S1000x512 : Shape := ⟨2, ![1000, 512]⟩
abbrev S210000x512 : Shape := ⟨2, ![210000, 512]⟩
abbrev S50000x11 : Shape := ⟨2, ![50000, 11]⟩
abbrev S1000x11 : Shape := ⟨2, ![1000, 11]⟩
abbrev S1000x75 : Shape := ⟨2, ![1000, 75]⟩

abbrev nBuf : Space → Nat
  | .hbm => 142
  | .vmem => 38
  | .smem => 0
  | _ => 0

abbrev hbmTy0_0 (i : Nat) : BufTy := match i % 128 with
  | 0 => ⟨S50000x1022, .f32⟩
  | 1 => ⟨S2x160000, .i32⟩
  | 2 => ⟨S1022x1024, .f32⟩
  | 3 => ⟨S1024, .f32⟩
  | 4 => ⟨S1024x512, .f32⟩
  | 5 => ⟨S512, .f32⟩
  | 6 => ⟨S512x512, .f32⟩
  | 7 => ⟨S512, .f32⟩
  | 8 => ⟨S512x512, .f32⟩
  | 9 => ⟨S512, .f32⟩
  | 10 => ⟨S512x512, .f32⟩
  | 11 => ⟨S512, .f32⟩
  | 12 => ⟨S512x75, .f32⟩
  | 13 => ⟨S75, .f32⟩
  | 14 => ⟨S75x11, .f32⟩
  | 15 => ⟨S11, .f32⟩
  | 16 => ⟨S50000, .i32⟩
  | 17 => ⟨S1x160000, .i32⟩
  | 18 => ⟨S160000, .i32⟩
  | 19 => ⟨S210000, .i32⟩
  | 20 => ⟨S1x160000, .i32⟩
  | 21 => ⟨S160000, .i32⟩
  | 22 => ⟨S210000, .i32⟩
  | 23 => ⟨S_, .f32⟩
  | 24 => ⟨S210000, .f32⟩
  | 25 => ⟨S_, .f32⟩
  | 26 => ⟨S50000, .f32⟩
  | 27 => ⟨S210000x1, .i32⟩
  | 28 => ⟨S50000, .f32⟩
  | 29 => ⟨S50000, .f32⟩
  | 30 => ⟨S_, .i32⟩
  | 31 => ⟨S210000, .i32⟩
  | 32 => ⟨S210000, .i1⟩
  | 33 => ⟨S_, .i32⟩
  | 34 => ⟨S210000, .i32⟩
  | 35 => ⟨S210000, .i32⟩
  | 36 => ⟨S210000, .i32⟩
  | 37 => ⟨S210000x1, .i32⟩
  | 38 => ⟨S210000, .f32⟩
  | 39 => ⟨S_, .i32⟩
  | 40 => ⟨S210000, .i32⟩
  | 41 => ⟨S210000, .i1⟩
  | 42 => ⟨S_, .i32⟩
  | 43 => ⟨S210000, .i32⟩
  | 44 => ⟨S210000, .i32⟩
  | 45 => ⟨S210000, .i32⟩
  | 46 => ⟨S210000x1, .i32⟩
  | 47 => ⟨S210000, .f32⟩
  | 48 => ⟨S210000, .f32⟩
  | 49 => ⟨S1x1024, .f32⟩
  | 50 => ⟨S1x512, .f32⟩
  | 51 => ⟨S1x512, .f32⟩
  | 52 => ⟨S1x512, .f32⟩
  | 53 => ⟨S1x512, .f32⟩
  | 54 => ⟨S1x75, .f32⟩
  | 55 => ⟨S1x11, .f32⟩
  | 56 => ⟨S50000x1024, .f32⟩
  | 57 => ⟨S_, .i32⟩
  | 58 => ⟨S210000, .i32⟩
  | 59 => ⟨S210000, .i1⟩
  | 60 => ⟨S_, .i32⟩
  | 61 => ⟨S210000, .i32⟩
  | 62 => ⟨S210000, .i32⟩
  | 63 => ⟨S210000, .i32⟩
  | 64 => ⟨S210000x1, .i32⟩
  | 65 => ⟨S210000x1024, .f32⟩
  | 66 => ⟨S210000x1, .f32⟩
  | 67 => ⟨S210000x1024, .f32⟩
  | 68 => ⟨S210000x1024, .f32⟩
  | 69 => ⟨S_, .f32⟩
  | 70 => ⟨S50000x1024, .f32⟩
  | 71 => ⟨S210000x1, .i32⟩
  | 72 => ⟨S50000x1024, .f32⟩
  | 73 => ⟨S50000x512, .f32⟩
  | 74 => ⟨S_, .i32⟩
  | 75 => ⟨S210000, .i32⟩
  | 76 => ⟨S210000, .i1⟩
  | 77 => ⟨S_, .i32⟩
  | 78 => ⟨S210000, .i32⟩
  | 79 => ⟨S210000, .i32⟩
  | 80 => ⟨S210000, .i32⟩
  | 81 => ⟨S210000x1, .i32⟩
  | 82 => ⟨S210000x512, .f32⟩
  | 83 => ⟨S210000x1, .f32⟩
  | 84 => ⟨S210000x512, .f32⟩
  | 85 => ⟨S210000x512, .f32⟩
  | 86 => ⟨S_, .f32⟩
  | 87 => ⟨S50000x512, .f32⟩
  | 88 => ⟨S210000x1, .i32⟩
  | 89 => ⟨S50000x512, .f32⟩
  | 90 => ⟨S50000x512, .f32⟩
  | 91 => ⟨S_, .i32⟩
  | 92 => ⟨S210000, .i32⟩
  | 93 => ⟨S210000, .i1⟩
  | 94 => ⟨S_, .i32⟩
  | 95 => ⟨S210000, .i32⟩
  | 96 => ⟨S210000, .i32⟩
  | 97 => ⟨S210000, .i32⟩
  | 98 => ⟨S210000x1, .i32⟩
  | 99 => ⟨S210000x512, .f32⟩
  | 100 => ⟨S210000x1, .f32⟩
  | 101 => ⟨S210000x512, .f32⟩
  | 102 => ⟨S210000x512, .f32⟩
  | 103 => ⟨S_, .f32⟩
  | 104 => ⟨S50000x512, .f32⟩
  | 105 => ⟨S210000x1, .i32⟩
  | 106 => ⟨S50000x512, .f32⟩
  | 107 => ⟨S50000x512, .f32⟩
  | 108 => ⟨S_, .i32⟩
  | 109 => ⟨S210000, .i32⟩
  | 110 => ⟨S210000, .i1⟩
  | 111 => ⟨S_, .i32⟩
  | 112 => ⟨S210000, .i32⟩
  | 113 => ⟨S210000, .i32⟩
  | 114 => ⟨S210000, .i32⟩
  | 115 => ⟨S210000x1, .i32⟩
  | 116 => ⟨S210000x512, .f32⟩
  | 117 => ⟨S210000x1, .f32⟩
  | 118 => ⟨S210000x512, .f32⟩
  | 119 => ⟨S210000x512, .f32⟩
  | 120 => ⟨S_, .f32⟩
  | 121 => ⟨S50000x512, .f32⟩
  | 122 => ⟨S210000x1, .i32⟩
  | 123 => ⟨S50000x512, .f32⟩
  | 124 => ⟨S50000x512, .f32⟩
  | 125 => ⟨S_, .i32⟩
  | 126 => ⟨S210000, .i32⟩
  | 127 => ⟨S210000, .i1⟩
  | _ => ⟨S50000x1022, .f32⟩

abbrev hbmTy0_1 (i : Nat) : BufTy := match i % 128 with
  | 0 => ⟨S_, .i32⟩
  | 1 => ⟨S210000, .i32⟩
  | 2 => ⟨S210000, .i32⟩
  | 3 => ⟨S210000, .i32⟩
  | 4 => ⟨S210000x1, .i32⟩
  | 5 => ⟨S210000x512, .f32⟩
  | 6 => ⟨S210000x1, .f32⟩
  | 7 => ⟨S210000x512, .f32⟩
  | 8 => ⟨S210000x512, .f32⟩
  | 9 => ⟨S_, .f32⟩
  | 10 => ⟨S50000x512, .f32⟩
  | 11 => ⟨S210000x1, .i32⟩
  | 12 => ⟨S50000x512, .f32⟩
  | 13 => ⟨S50000x11, .f32⟩
  | _ => ⟨S50000x1022, .f32⟩

abbrev hbmTy (i : Nat) : BufTy := match i / 128 with
  | 0 => hbmTy0_0 i
  | 1 => hbmTy0_1 i
  | _ => ⟨S50000x1022, .f32⟩

abbrev bufTy : (tb : Table) → Fin (tcTables nBuf tb) → BufTy
  | .hbm, ⟨i, _⟩ => hbmTy i
  | .local _ .vmem, ⟨0, _⟩ => ⟨S1000x1022, .f32⟩
  | .local _ .vmem, ⟨1, _⟩ => ⟨S1000x1022, .f32⟩
  | .local _ .vmem, ⟨2, _⟩ => ⟨S1022x1024, .f32⟩
  | .local _ .vmem, ⟨3, _⟩ => ⟨S1000x1024, .f32⟩
  | .local _ .vmem, ⟨4, _⟩ => ⟨S1000x1024, .f32⟩
  | .local _ .vmem, ⟨5, _⟩ => ⟨S1000x1024, .f32⟩
  | .local _ .vmem, ⟨6, _⟩ => ⟨S1000x1024, .f32⟩
  | .local _ .vmem, ⟨7, _⟩ => ⟨S1x1024, .f32⟩
  | .local _ .vmem, ⟨8, _⟩ => ⟨S1024x512, .f32⟩
  | .local _ .vmem, ⟨9, _⟩ => ⟨S1000x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S1x512, .f32⟩
  | .local _ .vmem, ⟨14, _⟩ => ⟨S512x512, .f32⟩
  | .local _ .vmem, ⟨15, _⟩ => ⟨S1000x512, .f32⟩
  | .local _ .vmem, ⟨16, _⟩ => ⟨S1000x512, .f32⟩
  | .local _ .vmem, ⟨17, _⟩ => ⟨S1000x512, .f32⟩
  | .local _ .vmem, ⟨18, _⟩ => ⟨S1000x512, .f32⟩
  | .local _ .vmem, ⟨19, _⟩ => ⟨S1x512, .f32⟩
  | .local _ .vmem, ⟨20, _⟩ => ⟨S512x512, .f32⟩
  | .local _ .vmem, ⟨21, _⟩ => ⟨S1000x512, .f32⟩
  | .local _ .vmem, ⟨22, _⟩ => ⟨S1000x512, .f32⟩
  | .local _ .vmem, ⟨23, _⟩ => ⟨S1000x512, .f32⟩
  | .local _ .vmem, ⟨24, _⟩ => ⟨S1000x512, .f32⟩
  | .local _ .vmem, ⟨25, _⟩ => ⟨S1x512, .f32⟩
  | .local _ .vmem, ⟨26, _⟩ => ⟨S512x512, .f32⟩
  | .local _ .vmem, ⟨27, _⟩ => ⟨S1000x512, .f32⟩
  | .local _ .vmem, ⟨28, _⟩ => ⟨S1000x512, .f32⟩
  | .local _ .vmem, ⟨29, _⟩ => ⟨S1000x512, .f32⟩
  | .local _ .vmem, ⟨30, _⟩ => ⟨S1000x512, .f32⟩
  | .local _ .vmem, ⟨31, _⟩ => ⟨S1x512, .f32⟩
  | .local _ .vmem, ⟨32, _⟩ => ⟨S512x75, .f32⟩
  | .local _ .vmem, ⟨33, _⟩ => ⟨S1x75, .f32⟩
  | .local _ .vmem, ⟨34, _⟩ => ⟨S75x11, .f32⟩
  | .local _ .vmem, ⟨35, _⟩ => ⟨S1x11, .f32⟩
  | .local _ .vmem, ⟨36, _⟩ => ⟨S1000x11, .f32⟩
  | .local _ .vmem, ⟨37, _⟩ => ⟨S1000x11, .f32⟩
  | _, _ => ⟨S50000x1022, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_4 : Ref sig .tc := ⟨.hbm, 57, rfl⟩
abbrev main_v35 : Ref sig .tc := ⟨.hbm, 58, rfl⟩
abbrev main_v36 : Ref sig .tc := ⟨.hbm, 59, rfl⟩
abbrev main_c_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_7 : Ref sig .tc := ⟨.hbm, 74, rfl⟩
abbrev main_v49 : Ref sig .tc := ⟨.hbm, 75, rfl⟩
abbrev main_v50 : Ref sig .tc := ⟨.hbm, 76, rfl⟩
abbrev main_c_8 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_9 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_10 : Ref sig .tc := ⟨.hbm, 91, rfl⟩
abbrev main_v63 : Ref sig .tc := ⟨.hbm, 92, rfl⟩
abbrev main_v64 : Ref sig .tc := ⟨.hbm, 93, rfl⟩
abbrev main_c_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_12 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_c_13 : Ref sig .tc := ⟨.hbm, 108, rfl⟩
abbrev main_v77 : Ref sig .tc := ⟨.hbm, 109, rfl⟩
abbrev main_v78 : Ref sig .tc := ⟨.hbm, 110, rfl⟩
abbrev main_c_14 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_15 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_16 : Ref sig .tc := ⟨.hbm, 125, rfl⟩
abbrev main_v91 : Ref sig .tc := ⟨.hbm, 126, rfl⟩
abbrev main_v92 : Ref sig .tc := ⟨.hbm, 127, rfl⟩
abbrev main_c_17 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_18 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg5_0 : Ref sig .tc := ⟨.vmem, 35, rfl⟩
abbrev cc5_stg6_0 : Ref sig .tc := ⟨.vmem, 36, rfl⟩
abbrev cc5_stg6_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1022 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1022x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S512x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S512x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S512x75 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x75 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S75x11 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x11 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S1000x11 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x160000_S1x160000_0_0 : S2x160000.Slices ![0, 0] S1x160000
  shapeCasts_S1x160000_S160000 : S1x160000.ShapeCasts S160000
  concatenates_S160000_S50000_S210000_d0 : Shape.Concatenates [S160000, S50000] S210000 0
  slices_S2x160000_S1x160000_1_0 : S2x160000.Slices ![1, 0] S1x160000
  bcast_S_S210000 : S_.BroadcastsInDim S210000 (![] : Fin 0 → Fin S210000.rank)
  bcast_S_S50000 : S_.BroadcastsInDim S50000 (![] : Fin 0 → Fin S50000.rank)
  bcast_S210000_S210000x1_0 : S210000.BroadcastsInDim S210000x1 (![0] : Fin 1 → Fin S210000x1.rank)
  shapeCasts_S1024_S1x1024 : S1024.ShapeCasts S1x1024
  shapeCasts_S512_S1x512 : S512.ShapeCasts S1x512
  shapeCasts_S75_S1x75 : S75.ShapeCasts S1x75
  shapeCasts_S11_S1x11 : S11.ShapeCasts S1x11
  inb_S1000x1022_S1000x1022_0_0 : ∀ a, (![0, 0] : Fin 2 → Nat) a + S1000x1022.size a ≤ S1000x1022.size a
  h_S1000x1022 : 0 < S1000x1022.numel
  bitsLt_bf16_f32 : FTy.bits .bf16 < FTy.bits .f32
  inb_S1022x1024_S1022x1024_0_0 : ∀ a, (![0, 0] : Fin 2 → Nat) a + S1022x1024.size a ≤ S1022x1024.size a
  h_S1022x1024 : 0 < S1022x1024.numel
  inb_S1000x1024_S1000x1024_0_0 : ∀ a, (![0, 0] : Fin 2 → Nat) a + S1000x1024.size a ≤ S1000x1024.size a
  h_S1000x1024 : 0 < S1000x1024.numel
  bcast_S210000x1_S210000x1024_0_1 : S210000x1.BroadcastsInDim S210000x1024 (![0, 1] : Fin 2 → Fin S210000x1024.rank)
  bcast_S_S50000x1024 : S_.BroadcastsInDim S50000x1024 (![] : Fin 0 → Fin S50000x1024.rank)
  shapeCasts_S1000x1024_S1000x1024 : S1000x1024.ShapeCasts S1000x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1024x512_S1024x512_0_0 : ∀ a, (![0, 0] : Fin 2 → Nat) a + S1024x512.size a ≤ S1024x512.size a
  h_S1024x512 : 0 < S1024x512.numel
  inb_S1000x512_S1000x512_0_0 : ∀ a, (![0, 0] : Fin 2 → Nat) a + S1000x512.size a ≤ S1000x512.size a
  h_S1000x512 : 0 < S1000x512.numel
  bcast_S210000x1_S210000x512_0_1 : S210000x1.BroadcastsInDim S210000x512 (![0, 1] : Fin 2 → Fin S210000x512.rank)
  bcast_S_S50000x512 : S_.BroadcastsInDim S50000x512 (![] : Fin 0 → Fin S50000x512.rank)
  shapeCasts_S1000x512_S1000x512 : S1000x512.ShapeCasts S1000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x512_S512x512_0_0 : ∀ a, (![0, 0] : Fin 2 → Nat) a + S512x512.size a ≤ S512x512.size a
  h_S512x512 : 0 < S512x512.numel
  inb_S512x75_S512x75_0_0 : ∀ a, (![0, 0] : Fin 2 → Nat) a + S512x75.size a ≤ S512x75.size a
  h_S512x75 : 0 < S512x75.numel
  inb_S1x75_S1x75_0_0 : ∀ a, (![0, 0] : Fin 2 → Nat) a + S1x75.size a ≤ S1x75.size a
  h_S1x75 : 0 < S1x75.numel
  shapeCasts_S1x75_S1x75 : S1x75.ShapeCasts S1x75
  broadcasts_S1x75_S1000x75 : S1x75.Broadcasts S1000x75
  inb_S75x11_S75x11_0_0 : ∀ a, (![0, 0] : Fin 2 → Nat) a + S75x11.size a ≤ S75x11.size a
  h_S75x11 : 0 < S75x11.numel
  inb_S1x11_S1x11_0_0 : ∀ a, (![0, 0] : Fin 2 → Nat) a + S1x11.size a ≤ S1x11.size a
  h_S1x11 : 0 < S1x11.numel
  shapeCasts_S1x11_S1x11 : S1x11.ShapeCasts S1x11
  broadcasts_S1x11_S1000x11 : S1x11.Broadcasts S1000x11
  inb_S1000x11_S1000x11_0_0 : ∀ a, (![0, 0] : Fin 2 → Nat) a + S1000x11.size a ≤ S1000x11.size a
  h_S1000x11 : 0 < S1000x11.numel
  scatter_S50000_S210000x1_S210000_n_0_0_1_wf : ScatterDims.WF S50000 S210000x1 S210000 [] [0] [0] 1
  gather_S50000_S210000x1_S210000_n_0_n_n_0_1_1_wf : GatherDims.WF S50000 S210000x1 S210000 [] [0] [] [0] [] 1 ![1]
  dot_S1000x1022_S1022x1024_S1000x1024_1_0_0_1_n_n_wf : DotDims.WF S1000x1022 S1022x1024 S1000x1024 [1] [0] [0] [1] [] []
  gather_S50000x1024_S210000x1_S210000x1024_1_0_n_n_0_1_11024_wf : GatherDims.WF S50000x1024 S210000x1 S210000x1024 [1] [0] [] [0] [] 1 ![1, 1024]
  scatter_S50000x1024_S210000x1_S210000x1024_1_0_0_1_wf : ScatterDims.WF S50000x1024 S210000x1 S210000x1024 [1] [0] [0] 1
  dot_S1000x1024_S1024x512_S1000x512_1_0_0_1_n_n_wf : DotDims.WF S1000x1024 S1024x512 S1000x512 [1] [0] [0] [1] [] []
  gather_S50000x512_S210000x1_S210000x512_1_0_n_n_0_1_1512_wf : GatherDims.WF S50000x512 S210000x1 S210000x512 [1] [0] [] [0] [] 1 ![1, 512]
  scatter_S50000x512_S210000x1_S210000x512_1_0_0_1_wf : ScatterDims.WF S50000x512 S210000x1 S210000x512 [1] [0] [0] 1
  dot_S1000x512_S512x512_S1000x512_1_0_0_1_n_n_wf : DotDims.WF S1000x512 S512x512 S1000x512 [1] [0] [0] [1] [] []
  dot_S1000x512_S512x75_S1000x75_1_0_0_1_n_n_wf : DotDims.WF S1000x512 S512x75 S1000x75 [1] [0] [0] [1] [] []
  dot_S1000x75_S75x11_S1000x11_1_0_0_1_n_n_wf : DotDims.WF S1000x75 S75x11 S1000x11 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1022.size a ≤ S50000x1022.size a
  hwx0_0 : ∀ i : grid0.Coords, EltTy.bits .f32 = 32 ∨ (Rect.block (s := S50000x1022) S1000x1022.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1022x1024.size a ≤ S1022x1024.size a
  hwx0_1 : ∀ i : grid0.Coords, EltTy.bits .f32 = 32 ∨ (Rect.block (s := S1022x1024) S1022x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1024.size a ≤ S50000x1024.size a
  hwx0_2 : ∀ i : grid0.Coords, EltTy.bits .f32 = 32 ∨ (Rect.block (s := S50000x1024) S1000x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1024.size a ≤ S50000x1024.size a
  hwx1_0 : ∀ i : grid1.Coords, EltTy.bits .f32 = 32 ∨ (Rect.block (s := S50000x1024) S1000x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S1024x512.size a
  hwx1_2 : ∀ i : grid1.Coords, EltTy.bits .f32 = 32 ∨ (Rect.block (s := S1024x512) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x512.size a ≤ S50000x512.size a
  hwx1_3 : ∀ i : grid1.Coords, EltTy.bits .f32 = 32 ∨ (Rect.block (s := S50000x512) S1000x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x512.size a ≤ S50000x512.size a
  hwx2_0 : ∀ i : grid2.Coords, EltTy.bits .f32 = 32 ∨ (Rect.block (s := S50000x512) S1000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x512.size a ≤ S1x512.size a
  hwx2_1 : ∀ i : grid2.Coords, EltTy.bits .f32 = 32 ∨ (Rect.block (s := S1x512) S1x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x512.size a ≤ S50000x512.size a
  hwx2_3 : ∀ i : grid2.Coords, EltTy.bits .f32 = 32 ∨ (Rect.block (s := S50000x512) S1000x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x512.size a ≤ S50000x512.size a
  hwx3_0 : ∀ i : grid3.Coords, EltTy.bits .f32 = 32 ∨ (Rect.block (s := S50000x512) S1000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x512.size a ≤ S1x512.size a
  hwx3_1 : ∀ i : grid3.Coords, EltTy.bits .f32 = 32 ∨ (Rect.block (s := S1x512) S1x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x512.size a ≤ S512x512.size a
  hwx3_2 : ∀ i : grid3.Coords, EltTy.bits .f32 = 32 ∨ (Rect.block (s := S512x512) S512x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x512.size a ≤ S50000x512.size a
  hwx3_3 : ∀ i : grid3.Coords, EltTy.bits .f32 = 32 ∨ (Rect.block (s := S50000x512) S1000x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x512.size a ≤ S50000x512.size a
  hwx4_0 : ∀ i : grid4.Coords, EltTy.bits .f32 = 32 ∨ (Rect.block (s := S50000x512) S1000x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x512.size a ≤ S1x512.size a
  hwx4_1 : ∀ i : grid4.Coords, EltTy.bits .f32 = 32 ∨ (Rect.block (s := S1x512) S1x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x512.size a ≤ S512x512.size a
  hwx4_2 : ∀ i : grid4.Coords, EltTy.bits .f32 = 32 ∨ (Rect.block (s := S512x512) S512x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x512.size a ≤ S50000x512.size a
  hwx4_3 : ∀ i : grid4.Coords, EltTy.bits .f32 = 32 ∨ (Rect.block (s := S50000x512) S1000x512.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x512.size a ≤ S50000x512.size a
  hwx5_0 : ∀ i : grid5.Coords, EltTy.bits .f32 = 32 ∨ (Rect.block (s := S50000x512) S1000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x512.size a ≤ S1x512.size a
  hwx5_1 : ∀ i : grid5.Coords, EltTy.bits .f32 = 32 ∨ (Rect.block (s := S1x512) S1x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S512x75.size a ≤ S512x75.size a
  hwx5_2 : ∀ i : grid5.Coords, EltTy.bits .f32 = 32 ∨ (Rect.block (s := S512x75) S512x75.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x75.size a ≤ S1x75.size a
  hwx5_3 : ∀ i : grid5.Coords, EltTy.bits .f32 = 32 ∨ (Rect.block (s := S1x75) S1x75.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S75x11.size a ≤ S75x11.size a
  hwx5_4 : ∀ i : grid5.Coords, EltTy.bits .f32 = 32 ∨ (Rect.block (s := S75x11) S75x11.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x11.size a ≤ S1x11.size a
  hwx5_5 : ∀ i : grid5.Coords, EltTy.bits .f32 = 32 ∨ (Rect.block (s := S1x11) S1x11.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S1000x11.size a ≤ S50000x11.size a
  hwx5_6 : ∀ i : grid5.Coords, EltTy.bits .f32 = 32 ∨ (Rect.block (s := S50000x11) S1000x11.size (cc5_transform_6 i) (hinb5_6 i)).WholeWords (EltTy.packing .f32)

variable [Facts₀]

def scatter_S50000_S210000x1_S210000_n_0_0_1 : ScatterDims S50000 S210000x1 S210000 where
  updateWindowDims := []
  insertedWindowDims := [0]
  scatterDimsToOperandDims := [0]
  indexVectorDim := 1
  wf := scatter_S50000_S210000x1_S210000_n_0_0_1_wf
def gather_S50000_S210000x1_S210000_n_0_n_n_0_1_1 : GatherDims S50000 S210000x1 S210000 where
  offsetDims := []
  collapsedSliceDims := [0]
  operandBatchingDims := []
  startIndicesBatchingDims := []
  startIndexMap := [0]
  indexVectorDim := 1
  sliceSizes := ![1]
  wf := gather_S50000_S210000x1_S210000_n_0_n_n_0_1_1_wf
def dot_S1000x1022_S1022x1024_S1000x1024_1_0_0_1_n_n : DotDims S1000x1022 S1022x1024 S1000x1024 where
  lhsContracting := [1]
  rhsContracting := [0]
  lhsNonContracting := [0]
  rhsNonContracting := [1]
  lhsBatch := []
  rhsBatch := []
  wf := dot_S1000x1022_S1022x1024_S1000x1024_1_0_0_1_n_n_wf
def gather_S50000x1024_S210000x1_S210000x1024_1_0_n_n_0_1_11024 : GatherDims S50000x1024 S210000x1 S210000x1024 where
  offsetDims := [1]
  collapsedSliceDims := [0]
  operandBatchingDims := []
  startIndicesBatchingDims := []
  startIndexMap := [0]
  indexVectorDim := 1
  sliceSizes := ![1, 1024]
  wf := gather_S50000x1024_S210000x1_S210000x1024_1_0_n_n_0_1_11024_wf
def scatter_S50000x1024_S210000x1_S210000x1024_1_0_0_1 : ScatterDims S50000x1024 S210000x1 S210000x1024 where
  updateWindowDims := [1]
  insertedWindowDims := [0]
  scatterDimsToOperandDims := [0]
  indexVectorDim := 1
  wf := scatter_S50000x1024_S210000x1_S210000x1024_1_0_0_1_wf
def dot_S1000x1024_S1024x512_S1000x512_1_0_0_1_n_n : DotDims S1000x1024 S1024x512 S1000x512 where
  lhsContracting := [1]
  rhsContracting := [0]
  lhsNonContracting := [0]
  rhsNonContracting := [1]
  lhsBatch := []
  rhsBatch := []
  wf := dot_S1000x1024_S1024x512_S1000x512_1_0_0_1_n_n_wf
def gather_S50000x512_S210000x1_S210000x512_1_0_n_n_0_1_1512 : GatherDims S50000x512 S210000x1 S210000x512 where
  offsetDims := [1]
  collapsedSliceDims := [0]
  operandBatchingDims := []
  startIndicesBatchingDims := []
  startIndexMap := [0]
  indexVectorDim := 1
  sliceSizes := ![1, 512]
  wf := gather_S50000x512_S210000x1_S210000x512_1_0_n_n_0_1_1512_wf
def scatter_S50000x512_S210000x1_S210000x512_1_0_0_1 : ScatterDims S50000x512 S210000x1 S210000x512 where
  updateWindowDims := [1]
  insertedWindowDims := [0]
  scatterDimsToOperandDims := [0]
  indexVectorDim := 1
  wf := scatter_S50000x512_S210000x1_S210000x512_1_0_0_1_wf
def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S1000x512_S512x75_S1000x75_1_0_0_1_n_n : DotDims S1000x512 S512x75 S1000x75 where
  lhsContracting := [1]
  rhsContracting := [0]
  lhsNonContracting := [0]
  rhsNonContracting := [1]
  lhsBatch := []
  rhsBatch := []
  wf := dot_S1000x512_S512x75_S1000x75_1_0_0_1_n_n_wf
def dot_S1000x75_S75x11_S1000x11_1_0_0_1_n_n : DotDims S1000x75 S75x11 S1000x11 where
  lhsContracting := [1]
  rhsContracting := [0]
  lhsNonContracting := [0]
  rhsNonContracting := [1]
  lhsBatch := []
  rhsBatch := []
  wf := dot_S1000x75_S75x11_S1000x11_1_0_0_1_n_n_wf

abbrev win0_0 : Pipeline.Window sig grid0 :=
  Pipeline.Window.ofSpec (Memref.whole main_arg0) S1000x1022.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1022x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1000x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S1000x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1024x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S1000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S1x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1000x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v75) S1000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S1x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S512x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1000x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v89) S1000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S1x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S512x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v90) S1000x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v103) S1000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v31) S1x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg12) S512x75.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v32) S1x75.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg14) S75x11.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v33) S1x11.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v104) S1000x11.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x1022 : Shape := ⟨2, ![50000, 1022]⟩
abbrev S2x160000 : Shape := ⟨2, ![2, 160000]⟩
abbrev S1022x1024 : Shape := ⟨2, ![1022, 1024]⟩
abbrev S1024 : Shape := ⟨1, ![1024]⟩
abbrev S1024x512 : Shape := ⟨2, ![1024, 512]⟩
abbrev S512 : Shape := ⟨1, ![512]⟩
abbrev S512x512 : Shape := ⟨2, ![512, 512]⟩
abbrev S512x75 : Shape := ⟨2, ![512, 75]⟩
abbrev S75 : Shape := ⟨1, ![75]⟩
abbrev S75x11 : Shape := ⟨2, ![75, 11]⟩
abbrev S11 : Shape := ⟨1, ![11]⟩
abbrev S50000 : Shape := ⟨1, ![50000]⟩
abbrev S1x160000 : Shape := ⟨2, ![1, 160000]⟩
abbrev S160000 : Shape := ⟨1, ![160000]⟩
abbrev S210000 : Shape := ⟨1, ![210000]⟩
abbrev S_ : Shape := ⟨0, ![]⟩
abbrev S210000x1 : Shape := ⟨2, ![210000, 1]⟩
abbrev S50000x1024 : Shape := ⟨2, ![50000, 1024]⟩
abbrev S210000x1024 : Shape := ⟨2, ![210000, 1024]⟩
abbrev S1x1024 : Shape := ⟨2, ![1, 1024]⟩
abbrev S50000x512 : Shape := ⟨2, ![50000, 512]⟩
abbrev S210000x512 : Shape := ⟨2, ![210000, 512]⟩
abbrev S1x512 : Shape := ⟨2, ![1, 512]⟩
abbrev S50000x75 : Shape := ⟨2, ![50000, 75]⟩
abbrev S1x75 : Shape := ⟨2, ![1, 75]⟩
abbrev S50000x11 : Shape := ⟨2, ![50000, 11]⟩
abbrev S1x11 : Shape := ⟨2, ![1, 11]⟩

abbrev nBuf : Space → Nat
  | .hbm => 175
  | .vmem => 0
  | .smem => 0
  | _ => 0

abbrev hbmTy0_0 (i : Nat) : BufTy := match i % 128 with
  | 0 => ⟨S50000x1022, .f32⟩
  | 1 => ⟨S2x160000, .i32⟩
  | 2 => ⟨S1022x1024, .f32⟩
  | 3 => ⟨S1024, .f32⟩
  | 4 => ⟨S1024x512, .f32⟩
  | 5 => ⟨S512, .f32⟩
  | 6 => ⟨S512x512, .f32⟩
  | 7 => ⟨S512, .f32⟩
  | 8 => ⟨S512x512, .f32⟩
  | 9 => ⟨S512, .f32⟩
  | 10 => ⟨S512x512, .f32⟩
  | 11 => ⟨S512, .f32⟩
  | 12 => ⟨S512x75, .f32⟩
  | 13 => ⟨S75, .f32⟩
  | 14 => ⟨S75x11, .f32⟩
  | 15 => ⟨S11, .f32⟩
  | 16 => ⟨S50000, .i32⟩
  | 17 => ⟨S1x160000, .i32⟩
  | 18 => ⟨S160000, .i32⟩
  | 19 => ⟨S210000, .i32⟩
  | 20 => ⟨S1x160000, .i32⟩
  | 21 => ⟨S160000, .i32⟩
  | 22 => ⟨S210000, .i32⟩
  | 23 => ⟨S_, .f32⟩
  | 24 => ⟨S210000, .f32⟩
  | 25 => ⟨S_, .f32⟩
  | 26 => ⟨S50000, .f32⟩
  | 27 => ⟨S210000x1, .i32⟩
  | 28 => ⟨S50000, .f32⟩
  | 29 => ⟨S50000, .f32⟩
  | 30 => ⟨S_, .i32⟩
  | 31 => ⟨S210000, .i32⟩
  | 32 => ⟨S210000, .i1⟩
  | 33 => ⟨S_, .i32⟩
  | 34 => ⟨S210000, .i32⟩
  | 35 => ⟨S210000, .i32⟩
  | 36 => ⟨S210000, .i32⟩
  | 37 => ⟨S210000x1, .i32⟩
  | 38 => ⟨S210000, .f32⟩
  | 39 => ⟨S_, .i32⟩
  | 40 => ⟨S210000, .i32⟩
  | 41 => ⟨S210000, .i1⟩
  | 42 => ⟨S_, .i32⟩
  | 43 => ⟨S210000, .i32⟩
  | 44 => ⟨S210000, .i32⟩
  | 45 => ⟨S210000, .i32⟩
  | 46 => ⟨S210000x1, .i32⟩
  | 47 => ⟨S210000, .f32⟩
  | 48 => ⟨S210000, .f32⟩
  | 49 => ⟨S50000x1024, .f32⟩
  | 50 => ⟨S_, .i32⟩
  | 51 => ⟨S210000, .i32⟩
  | 52 => ⟨S210000, .i1⟩
  | 53 => ⟨S_, .i32⟩
  | 54 => ⟨S210000, .i32⟩
  | 55 => ⟨S210000, .i32⟩
  | 56 => ⟨S210000, .i32⟩
  | 57 => ⟨S210000x1, .i32⟩
  | 58 => ⟨S210000x1024, .f32⟩
  | 59 => ⟨S210000x1, .f32⟩
  | 60 => ⟨S210000x1024, .f32⟩
  | 61 => ⟨S210000x1024, .f32⟩
  | 62 => ⟨S_, .f32⟩
  | 63 => ⟨S50000x1024, .f32⟩
  | 64 => ⟨S210000x1, .i32⟩
  | 65 => ⟨S50000x1024, .f32⟩
  | 66 => ⟨S1x1024, .f32⟩
  | 67 => ⟨S50000x1024, .f32⟩
  | 68 => ⟨S50000x1024, .f32⟩
  | 69 => ⟨S_, .f32⟩
  | 70 => ⟨S50000x1024, .f32⟩
  | 71 => ⟨S50000x1024, .f32⟩
  | 72 => ⟨S50000x512, .f32⟩
  | 73 => ⟨S_, .i32⟩
  | 74 => ⟨S210000, .i32⟩
  | 75 => ⟨S210000, .i1⟩
  | 76 => ⟨S_, .i32⟩
  | 77 => ⟨S210000, .i32⟩
  | 78 => ⟨S210000, .i32⟩
  | 79 => ⟨S210000, .i32⟩
  | 80 => ⟨S210000x1, .i32⟩
  | 81 => ⟨S210000x512, .f32⟩
  | 82 => ⟨S210000x1, .f32⟩
  | 83 => ⟨S210000x512, .f32⟩
  | 84 => ⟨S210000x512, .f32⟩
  | 85 => ⟨S_, .f32⟩
  | 86 => ⟨S50000x512, .f32⟩
  | 87 => ⟨S210000x1, .i32⟩
  | 88 => ⟨S50000x512, .f32⟩
  | 89 => ⟨S1x512, .f32⟩
  | 90 => ⟨S50000x512, .f32⟩
  | 91 => ⟨S50000x512, .f32⟩
  | 92 => ⟨S_, .f32⟩
  | 93 => ⟨S50000x512, .f32⟩
  | 94 => ⟨S50000x512, .f32⟩
  | 95 => ⟨S50000x512, .f32⟩
  | 96 => ⟨S_, .i32⟩
  | 97 => ⟨S210000, .i32⟩
  | 98 => ⟨S210000, .i1⟩
  | 99 => ⟨S_, .i32⟩
  | 100 => ⟨S210000, .i32⟩
  | 101 => ⟨S210000, .i32⟩
  | 102 => ⟨S210000, .i32⟩
  | 103 => ⟨S210000x1, .i32⟩
  | 104 => ⟨S210000x512, .f32⟩
  | 105 => ⟨S210000x1, .f32⟩
  | 106 => ⟨S210000x512, .f32⟩
  | 107 => ⟨S210000x512, .f32⟩
  | 108 => ⟨S_, .f32⟩
  | 109 => ⟨S50000x512, .f32⟩
  | 110 => ⟨S210000x1, .i32⟩
  | 111 => ⟨S50000x512, .f32⟩
  | 112 => ⟨S1x512, .f32⟩
  | 113 => ⟨S50000x512, .f32⟩
  | 114 => ⟨S50000x512, .f32⟩
  | 115 => ⟨S_, .f32⟩
  | 116 => ⟨S50000x512, .f32⟩
  | 117 => ⟨S50000x512, .f32⟩
  | 118 => ⟨S50000x512, .f32⟩
  | 119 => ⟨S_, .i32⟩
  | 120 => ⟨S210000, .i32⟩
  | 121 => ⟨S210000, .i1⟩
  | 122 => ⟨S_, .i32⟩
  | 123 => ⟨S210000, .i32⟩
  | 124 => ⟨S210000, .i32⟩
  | 125 => ⟨S210000, .i32⟩
  | 126 => ⟨S210000x1, .i32⟩
  | 127 => ⟨S210000x512, .f32⟩
  | _ => ⟨S50000x1022, .f32⟩

abbrev hbmTy0_1 (i : Nat) : BufTy := match i % 128 with
  | 0 => ⟨S210000x1, .f32⟩
  | 1 => ⟨S210000x512, .f32⟩
  | 2 => ⟨S210000x512, .f32⟩
  | 3 => ⟨S_, .f32⟩
  | 4 => ⟨S50000x512, .f32⟩
  | 5 => ⟨S210000x1, .i32⟩
  | 6 => ⟨S50000x512, .f32⟩
  | 7 => ⟨S1x512, .f32⟩
  | 8 => ⟨S50000x512, .f32⟩
  | 9 => ⟨S50000x512, .f32⟩
  | 10 => ⟨S_, .f32⟩
  | 11 => ⟨S50000x512, .f32⟩
  | 12 => ⟨S50000x512, .f32⟩
  | 13 => ⟨S50000x512, .f32⟩
  | 14 => ⟨S_, .i32⟩
  | 15 => ⟨S210000, .i32⟩
  | 16 => ⟨S210000, .i1⟩
  | 17 => ⟨S_, .i32⟩
  | 18 => ⟨S210000, .i32⟩
  | 19 => ⟨S210000, .i32⟩
  | 20 => ⟨S210000, .i32⟩
  | 21 => ⟨S210000x1, .i32⟩
  | 22 => ⟨S210000x512, .f32⟩
  | 23 => ⟨S210000x1, .f32⟩
  | 24 => ⟨S210000x512, .f32⟩
  | 25 => ⟨S210000x512, .f32⟩
  | 26 => ⟨S_, .f32⟩
  | 27 => ⟨S50000x512, .f32⟩
  | 28 => ⟨S210000x1, .i32⟩
  | 29 => ⟨S50000x512, .f32⟩
  | 30 => ⟨S1x512, .f32⟩
  | 31 => ⟨S50000x512, .f32⟩
  | 32 => ⟨S50000x512, .f32⟩
  | 33 => ⟨S_, .f32⟩
  | 34 => ⟨S50000x512, .f32⟩
  | 35 => ⟨S50000x512, .f32⟩
  | 36 => ⟨S50000x75, .f32⟩
  | 37 => ⟨S1x75, .f32⟩
  | 38 => ⟨S50000x75, .f32⟩
  | 39 => ⟨S50000x75, .f32⟩
  | 40 => ⟨S_, .f32⟩
  | 41 => ⟨S50000x75, .f32⟩
  | 42 => ⟨S50000x75, .f32⟩
  | 43 => ⟨S50000x11, .f32⟩
  | 44 => ⟨S1x11, .f32⟩
  | 45 => ⟨S50000x11, .f32⟩
  | 46 => ⟨S50000x11, .f32⟩
  | _ => ⟨S50000x1022, .f32⟩

abbrev hbmTy (i : Nat) : BufTy := match i / 128 with
  | 0 => hbmTy0_0 i
  | 1 => hbmTy0_1 i
  | _ => ⟨S50000x1022, .f32⟩

abbrev bufTy : (tb : Table) → Fin (tcTables nBuf tb) → BufTy
  | .hbm, ⟨i, _⟩ => hbmTy i
  | _, _ => ⟨S50000x1022, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call0_cst : Ref sig .tc := ⟨.hbm, 69, rfl⟩
abbrev main_call0_v0 : Ref sig .tc := ⟨.hbm, 70, rfl⟩
abbrev main_v44 : Ref sig .tc := ⟨.hbm, 71, rfl⟩
abbrev main_v45 : Ref sig .tc := ⟨.hbm, 72, rfl⟩
abbrev main_c_7 : Ref sig .tc := ⟨.hbm, 73, rfl⟩
abbrev main_v46 : Ref sig .tc := ⟨.hbm, 74, rfl⟩
abbrev main_v47 : Ref sig .tc := ⟨.hbm, 75, rfl⟩
abbrev main_c_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call1_cst : Ref sig .tc := ⟨.hbm, 92, rfl⟩
abbrev main_call1_v0 : Ref sig .tc := ⟨.hbm, 93, rfl⟩
abbrev main_v62 : Ref sig .tc := ⟨.hbm, 94, rfl⟩
abbrev main_v63 : Ref sig .tc := ⟨.hbm, 95, rfl⟩
abbrev main_c_10 : Ref sig .tc := ⟨.hbm, 96, rfl⟩
abbrev main_v64 : Ref sig .tc := ⟨.hbm, 97, rfl⟩
abbrev main_v65 : Ref sig .tc := ⟨.hbm, 98, rfl⟩
abbrev main_c_11 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_12 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_call2_cst : Ref sig .tc := ⟨.hbm, 115, rfl⟩
abbrev main_call2_v0 : Ref sig .tc := ⟨.hbm, 116, rfl⟩
abbrev main_v80 : Ref sig .tc := ⟨.hbm, 117, rfl⟩
abbrev main_v81 : Ref sig .tc := ⟨.hbm, 118, rfl⟩
abbrev main_c_13 : Ref sig .tc := ⟨.hbm, 119, rfl⟩
abbrev main_v82 : Ref sig .tc := ⟨.hbm, 120, rfl⟩
abbrev main_v83 : Ref sig .tc := ⟨.hbm, 121, rfl⟩
abbrev main_c_14 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_15 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_call3_cst : Ref sig .tc := ⟨.hbm, 138, rfl⟩
abbrev main_call3_v0 : Ref sig .tc := ⟨.hbm, 139, rfl⟩
abbrev main_v98 : Ref sig .tc := ⟨.hbm, 140, rfl⟩
abbrev main_v99 : Ref sig .tc := ⟨.hbm, 141, rfl⟩
abbrev main_c_16 : Ref sig .tc := ⟨.hbm, 142, rfl⟩
abbrev main_v100 : Ref sig .tc := ⟨.hbm, 143, rfl⟩
abbrev main_v101 : Ref sig .tc := ⟨.hbm, 144, rfl⟩
abbrev main_c_17 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_18 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_call4_cst : Ref sig .tc := ⟨.hbm, 161, rfl⟩
abbrev main_call4_v0 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_call5_cst : Ref sig .tc := ⟨.hbm, 168, rfl⟩
abbrev main_call5_v0 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S50000_S210000_d0 : Shape.Concatenates [S160000, S50000] S210000 0
  slices_S2x160000_S1x160000_1_0 : S2x160000.Slices ![1, 0] S1x160000
  bcast_S_S210000 : S_.BroadcastsInDim S210000 (![] : Fin 0 → Fin S210000.rank)
  bcast_S_S50000 : S_.BroadcastsInDim S50000 (![] : Fin 0 → Fin S50000.rank)
  bcast_S210000_S210000x1_0 : S210000.BroadcastsInDim S210000x1 (![0] : Fin 1 → Fin S210000x1.rank)
  bcast_S210000x1_S210000x1024_0_1 : S210000x1.BroadcastsInDim S210000x1024 (![0, 1] : Fin 2 → Fin S210000x1024.rank)
  bcast_S_S50000x1024 : S_.BroadcastsInDim S50000x1024 (![] : Fin 0 → Fin S50000x1024.rank)
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  bcast_S210000x1_S210000x512_0_1 : S210000x1.BroadcastsInDim S210000x512 (![0, 1] : Fin 2 → Fin S210000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S75_S1x75_1 : S75.BroadcastsInDim S1x75 (![1] : Fin 1 → Fin S1x75.rank)
  bcast_S1x75_S50000x75_0_1 : S1x75.BroadcastsInDim S50000x75 (![0, 1] : Fin 2 → Fin S50000x75.rank)
  bcast_S_S50000x75 : S_.BroadcastsInDim S50000x75 (![] : Fin 0 → Fin S50000x75.rank)
  bcast_S11_S1x11_1 : S11.BroadcastsInDim S1x11 (![1] : Fin 1 → Fin S1x11.rank)
  bcast_S1x11_S50000x11_0_1 : S1x11.BroadcastsInDim S50000x11 (![0, 1] : Fin 2 → Fin S50000x11.rank)
  scatter_S50000_S210000x1_S210000_n_0_0_1_wf : ScatterDims.WF S50000 S210000x1 S210000 [] [0] [0] 1
  gather_S50000_S210000x1_S210000_n_0_n_n_0_1_1_wf : GatherDims.WF S50000 S210000x1 S210000 [] [0] [] [0] [] 1 ![1]
  dot_S50000x1022_S1022x1024_S50000x1024_1_0_0_1_n_n_wf : DotDims.WF S50000x1022 S1022x1024 S50000x1024 [1] [0] [0] [1] [] []
  gather_S50000x1024_S210000x1_S210000x1024_1_0_n_n_0_1_11024_wf : GatherDims.WF S50000x1024 S210000x1 S210000x1024 [1] [0] [] [0] [] 1 ![1, 1024]
  scatter_S50000x1024_S210000x1_S210000x1024_1_0_0_1_wf : ScatterDims.WF S50000x1024 S210000x1 S210000x1024 [1] [0] [0] 1
  dot_S50000x1024_S1024x512_S50000x512_1_0_0_1_n_n_wf : DotDims.WF S50000x1024 S1024x512 S50000x512 [1] [0] [0] [1] [] []
  gather_S50000x512_S210000x1_S210000x512_1_0_n_n_0_1_1512_wf : GatherDims.WF S50000x512 S210000x1 S210000x512 [1] [0] [] [0] [] 1 ![1, 512]
  scatter_S50000x512_S210000x1_S210000x512_1_0_0_1_wf : ScatterDims.WF S50000x512 S210000x1 S210000x512 [1] [0] [0] 1
  dot_S50000x512_S512x512_S50000x512_1_0_0_1_n_n_wf : DotDims.WF S50000x512 S512x512 S50000x512 [1] [0] [0] [1] [] []
  dot_S50000x512_S512x75_S50000x75_1_0_0_1_n_n_wf : DotDims.WF S50000x512 S512x75 S50000x75 [1] [0] [0] [1] [] []
  dot_S50000x75_S75x11_S50000x11_1_0_0_1_n_n_wf : DotDims.WF S50000x75 S75x11 S50000x11 [1] [0] [0] [1] [] []

variable [Facts₀]

def scatter_S50000_S210000x1_S210000_n_0_0_1 : ScatterDims S50000 S210000x1 S210000 where
  updateWindowDims := []
  insertedWindowDims := [0]
  scatterDimsToOperandDims := [0]
  indexVectorDim := 1
  wf := scatter_S50000_S210000x1_S210000_n_0_0_1_wf
def gather_S50000_S210000x1_S210000_n_0_n_n_0_1_1 : GatherDims S50000 S210000x1 S210000 where
  offsetDims := []
  collapsedSliceDims := [0]
  operandBatchingDims := []
  startIndicesBatchingDims := []
  startIndexMap := [0]
  indexVectorDim := 1
  sliceSizes := ![1]
  wf := gather_S50000_S210000x1_S210000_n_0_n_n_0_1_1_wf
def dot_S50000x1022_S1022x1024_S50000x1024_1_0_0_1_n_n : DotDims S50000x1022 S1022x1024 S50000x1024 where
  lhsContracting := [1]
  rhsContracting := [0]
  lhsNonContracting := [0]
  rhsNonContracting := [1]
  lhsBatch := []
  rhsBatch := []
  wf := dot_S50000x1022_S1022x1024_S50000x1024_1_0_0_1_n_n_wf
def gather_S50000x1024_S210000x1_S210000x1024_1_0_n_n_0_1_11024 : GatherDims S50000x1024 S210000x1 S210000x1024 where
  offsetDims := [1]
  collapsedSliceDims := [0]
  operandBatchingDims := []
  startIndicesBatchingDims := []
  startIndexMap := [0]
  indexVectorDim := 1
  sliceSizes := ![1, 1024]
  wf := gather_S50000x1024_S210000x1_S210000x1024_1_0_n_n_0_1_11024_wf
def scatter_S50000x1024_S210000x1_S210000x1024_1_0_0_1 : ScatterDims S50000x1024 S210000x1 S210000x1024 where
  updateWindowDims := [1]
  insertedWindowDims := [0]
  scatterDimsToOperandDims := [0]
  indexVectorDim := 1
  wf := scatter_S50000x1024_S210000x1_S210000x1024_1_0_0_1_wf
def dot_S50000x1024_S1024x512_S50000x512_1_0_0_1_n_n : DotDims S50000x1024 S1024x512 S50000x512 where
  lhsContracting := [1]
  rhsContracting := [0]
  lhsNonContracting := [0]
  rhsNonContracting := [1]
  lhsBatch := []
  rhsBatch := []
  wf := dot_S50000x1024_S1024x512_S50000x512_1_0_0_1_n_n_wf
def gather_S50000x512_S210000x1_S210000x512_1_0_n_n_0_1_1512 : GatherDims S50000x512 S210000x1 S210000x512 where
  offsetDims := [1]
  collapsedSliceDims := [0]
  operandBatchingDims := []
  startIndicesBatchingDims := []
  startIndexMap := [0]
  indexVectorDim := 1
  sliceSizes := ![1, 512]
  wf := gather_S50000x512_S210000x1_S210000x512_1_0_n_n_0_1_1512_wf
def scatter_S50000x512_S210000x1_S210000x512_1_0_0_1 : ScatterDims S50000x512 S210000x1 S210000x512 where
  updateWindowDims := [1]
  insertedWindowDims := [0]
  scatterDimsToOperandDims := [0]
  indexVectorDim := 1
  wf := scatter_S50000x512_S210000x1_S210000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x75_S50000x75_1_0_0_1_n_n : DotDims S50000x512 S512x75 S50000x75 where
  lhsContracting := [1]
  rhsContracting := [0]
  lhsNonContracting := [0]
  rhsNonContracting := [1]
  lhsBatch := []
  rhsBatch := []
  wf := dot_S50000x512_S512x75_S50000x75_1_0_0_1_n_n_wf
def dot_S50000x75_S75x11_S50000x11_1_0_0_1_n_n : DotDims S50000x75 S75x11 S50000x11 where
  lhsContracting := [1]
  rhsContracting := [0]
  lhsNonContracting := [0]
  rhsNonContracting := [1]
  lhsBatch := []
  rhsBatch := []
  wf := dot_S50000x75_S75x11_S50000x11_1_0_0_1_n_n_wf

class Facts : Prop extends Facts₀ where

variable [Facts]
-- ==== Proof.KRun.lean ====
/-
  The kernel program's run with every buffer read back.

  The program's launch rule runs the twelve segments (six stretches of host lines, six pallas_calls) one after the
  other and ends with every unscoped buffer of the TensorCore at the last boundary's contents. The frame claim reads
  the argument buffers off that; here the same run is kept with ALL buffers readable, so that the result buffer can
  be read as well.
-/
import proofs.«103818_j50783693308233_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every
    TensorCore at the contents the last boundary names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The same run, read at the result buffer and at the sixteen arguments. -/
theorem run_result : θ_run defs (onTc (τ := τ) (main (F := F))) ⟨m, fun _ => 0, ρ⟩ (fun r => ∀ c : Dev nD,
      r.2.mem ((c.tc : Thread nD τ).loc main_v104) = W12 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨h c _ (mem_uc main_v104 (by decide)),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c),
     (h c _ (mem_uc main_arg12 (by decide))).trans (W12_main_arg12 m ρ c),
     (h c _ (mem_uc main_arg13 (by decide))).trans (W12_main_arg13 m ρ c),
     (h c _ (mem_uc main_arg14 (by decide))).trans (W12_main_arg14 m ρ c),
     (h c _ (mem_uc main_arg15 (by decide))).trans (W12_main_arg15 m ρ c)⟩)
    (run_all m ρ)

end Cert.KernelIdeal.Run

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.LibDenseRows.lean ====
/-
  Dense stages of a graph network read entry by entry, at exact (extended real) values.

    mm X W       entry (p, q) = Σ_k X[p, k] · W[k, q]        the matrix product
    act A b      entry (p, k) = max(A[p, k] + b[k], 0)        a bias laid along every row, then the rectifier
    addRow A b   entry (p, k) = A[p, k] + b[k]                a bias laid along every row

  A tiled body multiplies one block of rows by a whole weight matrix on the matrix unit, its operands narrowed to half
  precision first (at exact values the narrowing changes nothing) and its accumulator zero; a host program takes the
  whole product by a dot product. Both are read here at one entry as the same sum over the contracted index. The bias
  reaches the tiled body as a one-row matrix broadcast down the rows and the host program as a vector broadcast twice.
-/
import Idealize.ShloMosaic.PureOps.Ideal.Laws
import Idealize.ShloMosaic.Lib.ValueIdx
import Idealize.ShloMosaic.Lib.ValueLayout
import Idealize.ShloMosaic.Lib.Pipeline.Value
import proofs.«103818_j50783693308233_1_alg».proof.Proof.LibPlainContract
import proofs.«103818_j50783693308233_1_alg».proof.Proof.LibLreluRows

noncomputable section

namespace Cert.Dense

open Idealize.ShloMosaic Idealize.ShloMosaic.ValueIdx

variable {N K C : Nat}

/-- An N-by-K array of extended reals. -/
abbrev Mat (N K : Nat) : Type := (⟨2, ![N, K]⟩ : Shape).Idx → EReal
/-- A vector of K extended reals. -/
abbrev Row (K : Nat) : Type := (⟨1, ![K]⟩ : Shape).Idx → EReal

/-- The row and the column of an entry. -/
abbrev rowOf (i : (⟨2, ![N, K]⟩ : Shape).Idx) : Fin N := ⟨(i 0).val, idx2_lt0 i⟩
abbrev colOf (i : (⟨2, ![N, K]⟩ : Shape).Idx) : Fin K := ⟨(i 1).val, idx2_lt1 i⟩

/-- The matrix product. -/
def mm (X : Mat N K) (W : Mat K C) : Mat N C := fun i => ∑ k : Fin K, X (ix2 (rowOf i) k) * W (ix2 k (colOf i))
/-- A bias along every row, then the rectifier. -/
def act (A : Mat N K) (b : Row K) : Mat N K := fun i => max (A i + b (ix1 (colOf i))) 0
/-- A bias along every row. -/
def addRow (A : Mat N K) (b : Row K) : Mat N K := fun i => A i + b (ix1 (colOf i))

/-- A one-row bias along every row, then the rectifier. -/
def actRow (A : Mat N K) (b : Mat 1 K) : Mat N K := fun i => max (A i + b (ix2 (0 : Fin 1) (colOf i))) 0
/-- A one-row bias along every row. -/
def addRowRow (A : Mat N K) (b : Mat 1 K) : Mat N K := fun i => A i + b (ix2 (0 : Fin 1) (colOf i))

/-- The one-row bias that is a vector cast to a one-row matrix acts as the vector. -/
theorem actRow_cast (A : Mat N K) (v : Row K) (h : (⟨1, ![K]⟩ : Shape).ShapeCasts ⟨2, ![1, K]⟩) :
    actRow A (shapeCast ⟨2, ![1, K]⟩ v h) = act A v := by
  funext i
  exact congrArg (fun z => max (A i + z) 0) (Cert.LibLreluRows.rowCast_apply h v (colOf i))
theorem addRowRow_cast (A : Mat N K) (v : Row K) (h : (⟨1, ![K]⟩ : Shape).ShapeCasts ⟨2, ![1, K]⟩) :
    addRowRow A (shapeCast ⟨2, ![1, K]⟩ v h) = addRow A v := by
  funext i
  exact congrArg (fun z => A i + z) (Cert.LibLreluRows.rowCast_apply h v (colOf i))

theorem mm_apply (X : Mat N K) (W : Mat K C) (p : Fin N) (q : Fin C) :
    mm X W (ix2 p q) = ∑ k : Fin K, X (ix2 p k) * W (ix2 k q) := rfl
theorem act_apply (A : Mat N K) (b : Row K) (p : Fin N) (k : Fin K) :
    act A b (ix2 p k) = max (A (ix2 p k) + b (ix1 k)) 0 := rfl
theorem addRow_apply (A : Mat N K) (b : Row K) (p : Fin N) (k : Fin K) :
    addRow A b (ix2 p k) = A (ix2 p k) + b (ix1 k) := rfl
theorem actRow_apply (A : Mat N K) (b : Mat 1 K) (p : Fin N) (k : Fin K) :
    actRow A b (ix2 p k) = max (A (ix2 p k) + b (ix2 (0 : Fin 1) k)) 0 := rfl
theorem addRowRow_apply (A : Mat N K) (b : Mat 1 K) (p : Fin N) (k : Fin K) :
    addRowRow A b (ix2 p k) = A (ix2 p k) + b (ix2 (0 : Fin 1) k) := rfl

/-! ## The tiled body's stages at one entry -/

/-- The matrix unit's product of two narrowed operands into the zero accumulator is the plain sum. -/
theorem tileProduct_apply (M K C : Nat) (prec : Option ContractPrecision)
    (h0 h1 : FTy.bf16.bits < FTy.f32.bits)
    (x : FVec Ideal ⟨2, ![M, K]⟩ .f32) (w : FVec Ideal ⟨2, ![K, C]⟩ .f32) (p : Fin M) (q : Fin C) :
    matmul (DotDims.plain M K C) prec (truncf .bf16 x h0) (truncf .bf16 w h1)
        (constant ⟨2, ![M, C]⟩ .f32 0x00000000#32) (ix2 p q)
      = ∑ k : Fin K, x (ix2 p k) * w (ix2 k q) :=
  Cert.LibPlainContract.matmul_plain_apply M K C prec (truncf .bf16 x h0) (truncf .bf16 w h1) p q

/-- A block of rows plus a one-row bias broadcast down the rows, rectified against a splat zero, at one entry. -/
theorem tileAct_apply (M K : Nat)
    (hs0 : (⟨2, ![M, K]⟩ : Shape).ShapeCasts ⟨2, ![M, K]⟩) (hs1 : (⟨2, ![1, K]⟩ : Shape).ShapeCasts ⟨2, ![1, K]⟩)
    (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    maximumf (addf (shapeCast ⟨2, ![M, K]⟩ x hs0) (broadcastTo ⟨2, ![M, K]⟩ (shapeCast ⟨2, ![1, K]⟩ b hs1) hb))
        (broadcast ⟨2, ![M, K]⟩ (Scalar.ofBits (F := Ideal) .f32 0x00000000#32)) (ix2 p k)
      = max (x (ix2 p k) + b (ix2 (0 : Fin 1) k)) 0 := by
  show max (shapeCast ⟨2, ![M, K]⟩ x hs0 (ix2 p k) + broadcastTo ⟨2, ![M, K]⟩ (shapeCast ⟨2, ![1, K]⟩ b hs1) hb (ix2 p k))
      (Ideal.ofBits .f32 0x00000000#32) = _
  rw [shapeCast_self, Cert.LibLreluRows.rowDown_apply, Ideal.ofBits_zero_f32]

/-- A block of rows plus a one-row bias broadcast down the rows (no rectifier), at one entry. -/
theorem tileAddRow_apply (M K : Nat)
    (hs1 : (⟨2, ![1, K]⟩ : Shape).ShapeCasts ⟨2, ![1, K]⟩) (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    addf x (broadcastTo ⟨2, ![M, K]⟩ (shapeCast ⟨2, ![1, K]⟩ b hs1) hb) (ix2 p k)
      = x (ix2 p k) + b (ix2 (0 : Fin 1) k) := by
  show x (ix2 p k) + broadcastTo ⟨2, ![M, K]⟩ (shapeCast ⟨2, ![1, K]⟩ b hs1) hb (ix2 p k) = _
  rw [Cert.LibLreluRows.rowDown_apply]

/-- The rectifier against a splat zero, at one entry. -/
theorem tileRelu_apply (M K : Nat) (x : FVec Ideal ⟨2, ![M, K]⟩ .f32) (i : (⟨2, ![M, K]⟩ : Shape).Idx) :
    maximumf x (broadcast ⟨2, ![M, K]⟩ (Scalar.ofBits (F := Ideal) .f32 0x00000000#32)) i = max (x i) 0 := by
  show max (x i) (Ideal.ofBits .f32 0x00000000#32) = _
  rw [Ideal.ofBits_zero_f32]

/-! ## The host program's stages at one entry -/

/-- The host's dot product of two matrices is the plain sum. -/
theorem hostProduct_apply (M K C : Nat) (prec : Option ContractPrecision)
    (x : FVec Ideal ⟨2, ![M, K]⟩ .f32) (w : FVec Ideal ⟨2, ![K, C]⟩ .f32) (p : Fin M) (q : Fin C) :
    Host.dotGeneral (DotDims.plain M K C) prec x w (ix2 p q) = ∑ k : Fin K, x (ix2 p k) * w (ix2 k q) := by
  simp only [Host.dotGeneral]
  exact Cert.LibPlainContract.dotGeneral_plain_apply M K C prec _ x w p q

/-- A bias vector broadcast to a one-row matrix and down the rows, added, at one entry. -/
theorem hostAddRow_apply (M K : Nat) (h1 : (⟨1, ![K]⟩ : Shape).BroadcastsInDim ⟨2, ![1, K]⟩ ![1])
    (h2 : (⟨2, ![1, K]⟩ : Shape).BroadcastsInDim ⟨2, ![M, K]⟩ ![0, 1])
    (x : FVec Ideal ⟨2, ![M, K]⟩ .f32) (b : FVec Ideal ⟨1, ![K]⟩ .f32) (p : Fin M) (k : Fin K) :
    addf x (broadcastInDim ⟨2, ![M, K]⟩ ![0, 1] h2 (broadcastInDim ⟨2, ![1, K]⟩ ![1] h1 b)) (ix2 p k)
      = x (ix2 p k) + b (ix1 k) := by
  show x (ix2 p k) + broadcastInDim ⟨2, ![M, K]⟩ ![0, 1] h2 (broadcastInDim ⟨2, ![1, K]⟩ ![1] h1 b) (ix2 p k) = _
  rw [Cert.LibLreluRows.biasRows_apply]

/-- The rectifier against a rank-0 zero broadcast over the array, at one entry. -/
theorem hostRelu_apply (M K : Nat) (h : (⟨0, ![]⟩ : Shape).BroadcastsInDim ⟨2, ![M, K]⟩ ![])
    (x : FVec Ideal ⟨2, ![M, K]⟩ .f32) (i : (⟨2, ![M, K]⟩ : Shape).Idx) :
    maximumf x (broadcastInDim ⟨2, ![M, K]⟩ ![] h (constant (F := Ideal) ⟨0, ![]⟩ .f32 0x00000000#32)) i = max (x i) 0 := by
  show max (x i) (Ideal.ofBits .f32 0x00000000#32) = _
  rw [Ideal.ofBits_zero_f32]

end Cert.Dense

end
-- ==== Proof.KLayer0.lean ====
/-
  The first pallas_call (the input features times the first weight matrix), as a whole-array function of the arrays
  the call finds on entry.

  The call walks 50 blocks of 1000 rows. At block t the body loads rows 1000t … 1000t + 999 of the features (all
  1022 columns) and the whole 1022-by-1024 weight matrix and stores their product into rows 1000t … 1000t + 999 of
  the result. Entry (r, q) of the stored block depends on row r of the loaded block only, so block t of the result
  is the restriction to its rows of the matrix product of the whole arrays, and the 50 blocks tile the result.
-/
import proofs.«103818_j50783693308233_1_alg».proof.Proof.Gen.KernelIdeal.Frame
import proofs.«103818_j50783693308233_1_alg».proof.Proof.LibDenseRows
import Idealize.ShloMosaic.Lib.Pipeline.Value
import Idealize.ShloMosaic.Lib.ValueIdx

set_option maxRecDepth 16384

noncomputable section

namespace Cert.KernelIdeal.Layer0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (r, q): row r of the loaded block against column q of the weights. -/
theorem pay_apply (x0 : Vec Ideal S1000x1022 .f32) (x1 : Vec Ideal S1022x1024 .f32) (r : Fin 1000) (q : Fin 1024) :
    k0_pay1 x0 x1 (ix2 r q) = ∑ k : Fin 1022, x0 (ix2 r k) * x1 (ix2 k q) := by
  unfold k0_pay1
  exact Cert.Dense.tileProduct_apply 1000 1022 1024 none _ _ x0 x1 r q

/-- What the result array holds after the call, as a function of the two arrays the call reads. -/
def G (c : Dev nD) : Vec Ideal S50000x1024 .f32 :=
  Cert.Dense.mm (N := 50000) (K := 1022) (C := 1024) (V c main_arg0) (V c main_arg2)

/-- The printed index maps over the grid: block t of the features and of the result is block row t, the weights
    are always block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of G. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S1000x1022) hz, View.ld_unit_zero (S := S1022x1024) hz]
  obtain ⟨e00, e01, e10, e11, e20, e21⟩ := idx_facts t
  funext j
  obtain ⟨r, q, rfl⟩ : ∃ (r : Fin 1000) (q : Fin 1024), j = ix2 r q := ⟨j 0, j 1, eq_ix2 j⟩
  show k0_pay1 (iblk0 V c 0 t) (iblk0 V c 1 t) (ix2 r q) = G V c (((cfg0.win 2).blk t).view.emb (ix2 r q))
  refine (pay_apply (iblk0 V c 0 t) (iblk0 V c 1 t) r q).trans ?_
  unfold G Cert.Dense.mm
  refine Finset.sum_congr rfl fun k _ => ?_
  have h0 : (iblk0 V c 0 t : Vec Ideal S1000x1022 .f32) (ix2 r k)
      = (V c main_arg0 : S50000x1022.Idx → EReal) (ix2 (Cert.Dense.rowOf (((cfg0.win 2).blk t).view.emb (ix2 r q))) k) := by
    show (V c main_arg0 : S50000x1022.Idx → EReal) (((cfg0.win 0).blk t).view.emb (ix2 r k)) = _
    refine congrArg (V c main_arg0 : S50000x1022.Idx → EReal) (funext fun a => Fin.ext ?_)
    match a with
    | ⟨0, _⟩ => show win0_0.index t (0 : Fin 2) * 1000 + 1 * r.val = win0_2.index t (0 : Fin 2) * 1000 + 1 * r.val; omega
    | ⟨1, _⟩ => show win0_0.index t (1 : Fin 2) * 1022 + 1 * k.val = k.val; omega
  have h1 : (iblk0 V c 1 t : Vec Ideal S1022x1024 .f32) (ix2 k q)
      = (V c main_arg2 : S1022x1024.Idx → EReal) (ix2 k (Cert.Dense.colOf (((cfg0.win 2).blk t).view.emb (ix2 r q)))) := by
    show (V c main_arg2 : S1022x1024.Idx → EReal) (((cfg0.win 1).blk t).view.emb (ix2 k q)) = _
    refine congrArg (V c main_arg2 : S1022x1024.Idx → EReal) (funext fun a => Fin.ext ?_)
    match a with
    | ⟨0, _⟩ => show win0_1.index t (0 : Fin 2) * 1022 + 1 * k.val = k.val; omega
    | ⟨1, _⟩ => show win0_1.index t (1 : Fin 2) * 1024 + 1 * q.val = win0_2.index t (1 : Fin 2) * 1024 + 1 * q.val; omega
  rw [h0, h1]

/-- An entry of the result is in point t's block iff its row is among the block's 1000 rows. -/
theorem mem_blk (t : Fin cfg0.N) (i : S50000x1024.Idx) :
    i ∈ ((cfg0.win 2).blk t).view.set ↔ ∀ a : Fin 2, win0_2.index t a * S1000x1024.size a ≤ (i a).val
      ∧ (i a).val < win0_2.index t a * S1000x1024.size a + S1000x1024.size a := by
  show i ∈ ((View.whole main_v34).slice (win0_2.rect t)).set ↔ _
  rw [View.set_slice_whole, Rect.mem_set_unit]
  exact Iff.rfl

/-- Every entry of the result lies in the block of the point that owns its row: row / 1000. -/
theorem cover (i : S50000x1024.Idx) :
    ∃ t : Fin cfg0.N, (cfg0.win 2).flush t = true ∧ i ∈ ((cfg0.win 2).blk t).view.set := by
  have hi0 : (i 0).val < 50000 := (i 0).isLt
  have hi1 : (i 1).val < 1024 := (i 1).isLt
  have hN : cfg0.N = 50 := N_0
  obtain ⟨t, ht⟩ : ∃ t : Fin cfg0.N, t.val = (i 0).val / 1000 := ⟨⟨(i 0).val / 1000, by rw [hN]; omega⟩, rfl⟩
  obtain ⟨-, -, -, -, e20, e21⟩ := idx_facts t
  refine ⟨t, flush0_2 t, ?_⟩
  rw [mem_blk]
  intro a
  match a with
  | ⟨0, _⟩ =>
    show win0_2.index t (0 : Fin 2) * 1000 ≤ (i 0).val ∧ (i 0).val < win0_2.index t (0 : Fin 2) * 1000 + 1000
    omega
  | ⟨1, _⟩ =>
    show win0_2.index t (1 : Fin 2) * 1024 ≤ (i 1).val ∧ (i 1).val < win0_2.index t (1 : Fin 2) * 1024 + 1024
    omega

/-- The result array after the call is G of the arrays the call found. -/
theorem final (c : Dev nD) : (dat0 V c).arrAt 2 cfg0.N = G V c :=
  (dat0 V c).arrAt_eq_of_cover 2 (G V c) (fun t _ => flushed_eq V c t) cover

end Cert.KernelIdeal.Layer0

end
-- ==== Proof.KLayer1.lean ====
/-
  The second pallas_call (the first graph-convolution layer's dense stage), as a whole-array function of the arrays
  the call finds on entry.

  The call walks 50 blocks of 1000 rows. At block t the body loads rows 1000t … 1000t + 999 of the aggregated
  features (all 1024 columns), the one-row bias and the whole 1024-by-512 weight matrix, and stores
  max(rows + bias, 0) times the weights into rows 1000t … 1000t + 999 of the result. Entry (r, q) of the stored
  block depends on row r of the loaded block only, so block t of the result is the restriction to its rows of ONE
  function of the whole arrays — the matrix product of the rectified, biased features with the weights — and the
  50 blocks tile the result.
-/
import proofs.«103818_j50783693308233_1_alg».proof.Proof.Gen.KernelIdeal.Frame
import proofs.«103818_j50783693308233_1_alg».proof.Proof.LibDenseRows
import Idealize.ShloMosaic.Lib.Pipeline.Value
import Idealize.ShloMosaic.Lib.ValueIdx

set_option maxRecDepth 16384

noncomputable section

namespace Cert.KernelIdeal.Layer1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (r, q): the rectified, biased row r of the loaded block against column q of the weights. -/
theorem pay_apply (x0 : Vec Ideal S1000x1024 .f32) (x1 : Vec Ideal S1x1024 .f32) (x2 : Vec Ideal S1024x512 .f32)
    (r : Fin 1000) (q : Fin 512) :
    k1_pay1 x0 x1 x2 (ix2 r q) = ∑ k : Fin 1024, max (x0 (ix2 r k) + x1 (ix2 (0 : Fin 1) k)) 0 * x2 (ix2 k q) := by
  unfold k1_pay1
  refine (Cert.Dense.tileProduct_apply 1000 1024 512 none _ _ _ x2 r q).trans ?_
  refine Finset.sum_congr rfl fun k _ => ?_
  rw [Cert.Dense.tileAct_apply]

/-- What the result array holds after the call, as a function of the three arrays the call reads. -/
def G (c : Dev nD) : Vec Ideal S50000x512 .f32 :=
  Cert.Dense.mm (N := 50000) (K := 1024) (C := 512)
    (Cert.Dense.actRow (N := 50000) (K := 1024) (V c main_v47) (V c main_v27)) (V c main_arg4)

/-- The printed index maps over the grid: block t of the features and of the result is block row t, the bias and
    the weights are always block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of G. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S1000x1024) hz, View.ld_unit_zero (S := S1x1024) hz, View.ld_unit_zero (S := S1024x512) hz]
  obtain ⟨e00, e01, e10, e11, e20, e21, e30, e31⟩ := idx_facts t
  funext j
  obtain ⟨r, q, rfl⟩ : ∃ (r : Fin 1000) (q : Fin 512), j = ix2 r q := ⟨j 0, j 1, eq_ix2 j⟩
  show k1_pay1 (iblk1 V c 0 t) (iblk1 V c 1 t) (iblk1 V c 2 t) (ix2 r q) = G V c (((cfg1.win 3).blk t).view.emb (ix2 r q))
  refine (pay_apply (iblk1 V c 0 t) (iblk1 V c 1 t) (iblk1 V c 2 t) r q).trans ?_
  unfold G Cert.Dense.mm
  refine Finset.sum_congr rfl fun k _ => ?_
  have h0 : (iblk1 V c 0 t : Vec Ideal S1000x1024 .f32) (ix2 r k)
      = (V c main_v47 : S50000x1024.Idx → EReal) (ix2 (Cert.Dense.rowOf (((cfg1.win 3).blk t).view.emb (ix2 r q))) k) := by
    show (V c main_v47 : S50000x1024.Idx → EReal) (((cfg1.win 0).blk t).view.emb (ix2 r k)) = _
    refine congrArg (V c main_v47 : S50000x1024.Idx → EReal) (funext fun a => Fin.ext ?_)
    match a with
    | ⟨0, _⟩ => show win1_0.index t (0 : Fin 2) * 1000 + 1 * r.val = win1_3.index t (0 : Fin 2) * 1000 + 1 * r.val; omega
    | ⟨1, _⟩ => show win1_0.index t (1 : Fin 2) * 1024 + 1 * k.val = k.val; omega
  have h1 : (iblk1 V c 1 t : Vec Ideal S1x1024 .f32) (ix2 (0 : Fin 1) k)
      = (V c main_v27 : S1x1024.Idx → EReal) (ix2 (0 : Fin 1) k) := by
    show (V c main_v27 : S1x1024.Idx → EReal) (((cfg1.win 1).blk t).view.emb (ix2 (0 : Fin 1) k)) = _
    refine congrArg (V c main_v27 : S1x1024.Idx → EReal) (funext fun a => Fin.ext ?_)
    match a with
    | ⟨0, _⟩ => show win1_1.index t (0 : Fin 2) * 1 + 1 * 0 = 0; omega
    | ⟨1, _⟩ => show win1_1.index t (1 : Fin 2) * 1024 + 1 * k.val = k.val; omega
  have h2 : (iblk1 V c 2 t : Vec Ideal S1024x512 .f32) (ix2 k q)
      = (V c main_arg4 : S1024x512.Idx → EReal) (ix2 k (Cert.Dense.colOf (((cfg1.win 3).blk t).view.emb (ix2 r q)))) := by
    show (V c main_arg4 : S1024x512.Idx → EReal) (((cfg1.win 2).blk t).view.emb (ix2 k q)) = _
    refine congrArg (V c main_arg4 : S1024x512.Idx → EReal) (funext fun a => Fin.ext ?_)
    match a with
    | ⟨0, _⟩ => show win1_2.index t (0 : Fin 2) * 1024 + 1 * k.val = k.val; omega
    | ⟨1, _⟩ => show win1_2.index t (1 : Fin 2) * 512 + 1 * q.val = win1_3.index t (1 : Fin 2) * 512 + 1 * q.val; omega
  rw [h0, h1, h2]
  rfl

/-- An entry of the result is in point t's block iff its row is among the block's 1000 rows. -/
theorem mem_blk (t : Fin cfg1.N) (i : S50000x512.Idx) :
    i ∈ ((cfg1.win 3).blk t).view.set ↔ ∀ a : Fin 2, win1_3.index t a * S1000x512.size a ≤ (i a).val
      ∧ (i a).val < win1_3.index t a * S1000x512.size a + S1000x512.size a := by
  show i ∈ ((View.whole main_v48).slice (win1_3.rect t)).set ↔ _
  rw [View.set_slice_whole, Rect.mem_set_unit]
  exact Iff.rfl

/-- Every entry of the result lies in the block of the point that owns its row: row / 1000. -/
theorem cover (i : S50000x512.Idx) :
    ∃ t : Fin cfg1.N, (cfg1.win 3).flush t = true ∧ i ∈ ((cfg1.win 3).blk t).view.set := by
  have hi0 : (i 0).val < 50000 := (i 0).isLt
  have hi1 : (i 1).val < 512 := (i 1).isLt
  have hN : cfg1.N = 50 := N_1
  obtain ⟨t, ht⟩ : ∃ t : Fin cfg1.N, t.val = (i 0).val / 1000 := ⟨⟨(i 0).val / 1000, by rw [hN]; omega⟩, rfl⟩
  obtain ⟨-, -, -, -, -, -, e30, e31⟩ := idx_facts t
  refine ⟨t, flush1_3 t, ?_⟩
  rw [mem_blk]
  intro a
  match a with
  | ⟨0, _⟩ =>
    show win1_3.index t (0 : Fin 2) * 1000 ≤ (i 0).val ∧ (i 0).val < win1_3.index t (0 : Fin 2) * 1000 + 1000
    omega
  | ⟨1, _⟩ =>
    show win1_3.index t (1 : Fin 2) * 512 ≤ (i 1).val ∧ (i 1).val < win1_3.index t (1 : Fin 2) * 512 + 512
    omega

/-- The result array after the call is G of the arrays the call found. -/
theorem final (c : Dev nD) : (dat1 V c).arrAt 3 cfg1.N = G V c :=
  (dat1 V c).arrAt_eq_of_cover 3 (G V c) (fun t _ => flushed_eq V c t) cover

end Cert.KernelIdeal.Layer1

end
-- ==== Proof.KLayer2.lean ====
/-
  The third pallas_call (the second graph-convolution layer's dense stage), as a whole-array function of the arrays
  the call finds on entry.

  The call walks 50 blocks of 1000 rows. At block t the body loads rows 1000t … 1000t + 999 of the aggregated
  features (all 512 columns), the one-row bias and the whole 512-by-512 weight matrix, and stores
  max(rows + bias, 0) times the weights into rows 1000t … 1000t + 999 of the result. Entry (r, q) of the stored
  block depends on row r of the loaded block only, so block t of the result is the restriction to its rows of ONE
  function of the whole arrays — the matrix product of the rectified, biased features with the weights — and the
  50 blocks tile the result.
-/
import proofs.«103818_j50783693308233_1_alg».proof.Proof.Gen.KernelIdeal.Frame
import proofs.«103818_j50783693308233_1_alg».proof.Proof.LibDenseRows
import Idealize.ShloMosaic.Lib.Pipeline.Value
import Idealize.ShloMosaic.Lib.ValueIdx

set_option maxRecDepth 16384

noncomputable section

namespace Cert.KernelIdeal.Layer2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (r, q): the rectified, biased row r of the loaded block against column q of the weights. -/
theorem pay_apply (x0 : Vec Ideal S1000x512 .f32) (x1 : Vec Ideal S1x512 .f32) (x2 : Vec Ideal S512x512 .f32)
    (r : Fin 1000) (q : Fin 512) :
    k2_pay1 x0 x1 x2 (ix2 r q) = ∑ k : Fin 512, max (x0 (ix2 r k) + x1 (ix2 (0 : Fin 1) k)) 0 * x2 (ix2 k q) := by
  unfold k2_pay1
  refine (Cert.Dense.tileProduct_apply 1000 512 512 none _ _ _ x2 r q).trans ?_
  refine Finset.sum_congr rfl fun k _ => ?_
  rw [Cert.Dense.tileAct_apply]

/-- What the result array holds after the call, as a function of the three arrays the call reads. -/
def G (c : Dev nD) : Vec Ideal S50000x512 .f32 :=
  Cert.Dense.mm (N := 50000) (K := 512) (C := 512)
    (Cert.Dense.actRow (N := 50000) (K := 512) (V c main_v61) (V c main_v28)) (V c main_arg6)

/-- The printed index maps over the grid: block t of the features and of the result is block row t, the bias and
    the weights are always block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of G. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S1000x512) hz, View.ld_unit_zero (S := S1x512) hz, View.ld_unit_zero (S := S512x512) hz]
  obtain ⟨e00, e01, e10, e11, e20, e21, e30, e31⟩ := idx_facts t
  funext j
  obtain ⟨r, q, rfl⟩ : ∃ (r : Fin 1000) (q : Fin 512), j = ix2 r q := ⟨j 0, j 1, eq_ix2 j⟩
  show k2_pay1 (iblk2 V c 0 t) (iblk2 V c 1 t) (iblk2 V c 2 t) (ix2 r q) = G V c (((cfg2.win 3).blk t).view.emb (ix2 r q))
  refine (pay_apply (iblk2 V c 0 t) (iblk2 V c 1 t) (iblk2 V c 2 t) r q).trans ?_
  unfold G Cert.Dense.mm
  refine Finset.sum_congr rfl fun k _ => ?_
  have h0 : (iblk2 V c 0 t : Vec Ideal S1000x512 .f32) (ix2 r k)
      = (V c main_v61 : S50000x512.Idx → EReal) (ix2 (Cert.Dense.rowOf (((cfg2.win 3).blk t).view.emb (ix2 r q))) k) := by
    show (V c main_v61 : S50000x512.Idx → EReal) (((cfg2.win 0).blk t).view.emb (ix2 r k)) = _
    refine congrArg (V c main_v61 : S50000x512.Idx → EReal) (funext fun a => Fin.ext ?_)
    match a with
    | ⟨0, _⟩ => show win2_0.index t (0 : Fin 2) * 1000 + 1 * r.val = win2_3.index t (0 : Fin 2) * 1000 + 1 * r.val; omega
    | ⟨1, _⟩ => show win2_0.index t (1 : Fin 2) * 512 + 1 * k.val = k.val; omega
  have h1 : (iblk2 V c 1 t : Vec Ideal S1x512 .f32) (ix2 (0 : Fin 1) k)
      = (V c main_v28 : S1x512.Idx → EReal) (ix2 (0 : Fin 1) k) := by
    show (V c main_v28 : S1x512.Idx → EReal) (((cfg2.win 1).blk t).view.emb (ix2 (0 : Fin 1) k)) = _
    refine congrArg (V c main_v28 : S1x512.Idx → EReal) (funext fun a => Fin.ext ?_)
    match a with
    | ⟨0, _⟩ => show win2_1.index t (0 : Fin 2) * 1 + 1 * 0 = 0; omega
    | ⟨1, _⟩ => show win2_1.index t (1 : Fin 2) * 512 + 1 * k.val = k.val; omega
  have h2 : (iblk2 V c 2 t : Vec Ideal S512x512 .f32) (ix2 k q)
      = (V c main_arg6 : S512x512.Idx → EReal) (ix2 k (Cert.Dense.colOf (((cfg2.win 3).blk t).view.emb (ix2 r q)))) := by
    show (V c main_arg6 : S512x512.Idx → EReal) (((cfg2.win 2).blk t).view.emb (ix2 k q)) = _
    refine congrArg (V c main_arg6 : S512x512.Idx → EReal) (funext fun a => Fin.ext ?_)
    match a with
    | ⟨0, _⟩ => show win2_2.index t (0 : Fin 2) * 512 + 1 * k.val = k.val; omega
    | ⟨1, _⟩ => show win2_2.index t (1 : Fin 2) * 512 + 1 * q.val = win2_3.index t (1 : Fin 2) * 512 + 1 * q.val; omega
  rw [h0, h1, h2]
  rfl

/-- An entry of the result is in point t's block iff its row is among the block's 1000 rows. -/
theorem mem_blk (t : Fin cfg2.N) (i : S50000x512.Idx) :
    i ∈ ((cfg2.win 3).blk t).view.set ↔ ∀ a : Fin 2, win2_3.index t a * S1000x512.size a ≤ (i a).val
      ∧ (i a).val < win2_3.index t a * S1000x512.size a + S1000x512.size a := by
  show i ∈ ((View.whole main_v62).slice (win2_3.rect t)).set ↔ _
  rw [View.set_slice_whole, Rect.mem_set_unit]
  exact Iff.rfl

/-- Every entry of the result lies in the block of the point that owns its row: row / 1000. -/
theorem cover (i : S50000x512.Idx) :
    ∃ t : Fin cfg2.N, (cfg2.win 3).flush t = true ∧ i ∈ ((cfg2.win 3).blk t).view.set := by
  have hi0 : (i 0).val < 50000 := (i 0).isLt
  have hi1 : (i 1).val < 512 := (i 1).isLt
  have hN : cfg2.N = 50 := N_2
  obtain ⟨t, ht⟩ : ∃ t : Fin cfg2.N, t.val = (i 0).val / 1000 := ⟨⟨(i 0).val / 1000, by rw [hN]; omega⟩, rfl⟩
  obtain ⟨-, -, -, -, -, -, e30, e31⟩ := idx_facts t
  refine ⟨t, flush2_3 t, ?_⟩
  rw [mem_blk]
  intro a
  match a with
  | ⟨0, _⟩ =>
    show win2_3.index t (0 : Fin 2) * 1000 ≤ (i 0).val ∧ (i 0).val < win2_3.index t (0 : Fin 2) * 1000 + 1000
    omega
  | ⟨1, _⟩ =>
    show win2_3.index t (1 : Fin 2) * 512 ≤ (i 1).val ∧ (i 1).val < win2_3.index t (1 : Fin 2) * 512 + 512
    omega

/-- The result array after the call is G of the arrays the call found. -/
theorem final (c : Dev nD) : (dat2 V c).arrAt 3 cfg2.N = G V c :=
  (dat2 V c).arrAt_eq_of_cover 3 (G V c) (fun t _ => flushed_eq V c t) cover

end Cert.KernelIdeal.Layer2

end
-- ==== Proof.KLayer3.lean ====
/-
  The fourth pallas_call (the third graph-convolution layer's dense stage), as a whole-array function of the arrays
  the call finds on entry.

  The call walks 50 blocks of 1000 rows. At block t the body loads rows 1000t … 1000t + 999 of the aggregated
  features (all 512 columns), the one-row bias and the whole 512-by-512 weight matrix, and stores
  max(rows + bias, 0) times the weights into rows 1000t … 1000t + 999 of the result. Entry (r, q) of the stored
  block depends on row r of the loaded block only, so block t of the result is the restriction to its rows of ONE
  function of the whole arrays — the matrix product of the rectified, biased features with the weights — and the
  50 blocks tile the result.
-/
import proofs.«103818_j50783693308233_1_alg».proof.Proof.Gen.KernelIdeal.Frame
import proofs.«103818_j50783693308233_1_alg».proof.Proof.LibDenseRows
import Idealize.ShloMosaic.Lib.Pipeline.Value
import Idealize.ShloMosaic.Lib.ValueIdx

set_option maxRecDepth 16384

noncomputable section

namespace Cert.KernelIdeal.Layer3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (r, q): the rectified, biased row r of the loaded block against column q of the weights. -/
theorem pay_apply (x0 : Vec Ideal S1000x512 .f32) (x1 : Vec Ideal S1x512 .f32) (x2 : Vec Ideal S512x512 .f32)
    (r : Fin 1000) (q : Fin 512) :
    k3_pay1 x0 x1 x2 (ix2 r q) = ∑ k : Fin 512, max (x0 (ix2 r k) + x1 (ix2 (0 : Fin 1) k)) 0 * x2 (ix2 k q) := by
  unfold k3_pay1
  refine (Cert.Dense.tileProduct_apply 1000 512 512 none _ _ _ x2 r q).trans ?_
  refine Finset.sum_congr rfl fun k _ => ?_
  rw [Cert.Dense.tileAct_apply]

/-- What the result array holds after the call, as a function of the three arrays the call reads. -/
def G (c : Dev nD) : Vec Ideal S50000x512 .f32 :=
  Cert.Dense.mm (N := 50000) (K := 512) (C := 512)
    (Cert.Dense.actRow (N := 50000) (K := 512) (V c main_v75) (V c main_v29)) (V c main_arg8)

/-- The printed index maps over the grid: block t of the features and of the result is block row t, the bias and
    the weights are always block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of G. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S1000x512) hz, View.ld_unit_zero (S := S1x512) hz, View.ld_unit_zero (S := S512x512) hz]
  obtain ⟨e00, e01, e10, e11, e20, e21, e30, e31⟩ := idx_facts t
  funext j
  obtain ⟨r, q, rfl⟩ : ∃ (r : Fin 1000) (q : Fin 512), j = ix2 r q := ⟨j 0, j 1, eq_ix2 j⟩
  show k3_pay1 (iblk3 V c 0 t) (iblk3 V c 1 t) (iblk3 V c 2 t) (ix2 r q) = G V c (((cfg3.win 3).blk t).view.emb (ix2 r q))
  refine (pay_apply (iblk3 V c 0 t) (iblk3 V c 1 t) (iblk3 V c 2 t) r q).trans ?_
  unfold G Cert.Dense.mm
  refine Finset.sum_congr rfl fun k _ => ?_
  have h0 : (iblk3 V c 0 t : Vec Ideal S1000x512 .f32) (ix2 r k)
      = (V c main_v75 : S50000x512.Idx → EReal) (ix2 (Cert.Dense.rowOf (((cfg3.win 3).blk t).view.emb (ix2 r q))) k) := by
    show (V c main_v75 : S50000x512.Idx → EReal) (((cfg3.win 0).blk t).view.emb (ix2 r k)) = _
    refine congrArg (V c main_v75 : S50000x512.Idx → EReal) (funext fun a => Fin.ext ?_)
    match a with
    | ⟨0, _⟩ => show win3_0.index t (0 : Fin 2) * 1000 + 1 * r.val = win3_3.index t (0 : Fin 2) * 1000 + 1 * r.val; omega
    | ⟨1, _⟩ => show win3_0.index t (1 : Fin 2) * 512 + 1 * k.val = k.val; omega
  have h1 : (iblk3 V c 1 t : Vec Ideal S1x512 .f32) (ix2 (0 : Fin 1) k)
      = (V c main_v29 : S1x512.Idx → EReal) (ix2 (0 : Fin 1) k) := by
    show (V c main_v29 : S1x512.Idx → EReal) (((cfg3.win 1).blk t).view.emb (ix2 (0 : Fin 1) k)) = _
    refine congrArg (V c main_v29 : S1x512.Idx → EReal) (funext fun a => Fin.ext ?_)
    match a with
    | ⟨0, _⟩ => show win3_1.index t (0 : Fin 2) * 1 + 1 * 0 = 0; omega
    | ⟨1, _⟩ => show win3_1.index t (1 : Fin 2) * 512 + 1 * k.val = k.val; omega
  have h2 : (iblk3 V c 2 t : Vec Ideal S512x512 .f32) (ix2 k q)
      = (V c main_arg8 : S512x512.Idx → EReal) (ix2 k (Cert.Dense.colOf (((cfg3.win 3).blk t).view.emb (ix2 r q)))) := by
    show (V c main_arg8 : S512x512.Idx → EReal) (((cfg3.win 2).blk t).view.emb (ix2 k q)) = _
    refine congrArg (V c main_arg8 : S512x512.Idx → EReal) (funext fun a => Fin.ext ?_)
    match a with
    | ⟨0, _⟩ => show win3_2.index t (0 : Fin 2) * 512 + 1 * k.val = k.val; omega
    | ⟨1, _⟩ => show win3_2.index t (1 : Fin 2) * 512 + 1 * q.val = win3_3.index t (1 : Fin 2) * 512 + 1 * q.val; omega
  rw [h0, h1, h2]
  rfl

/-- An entry of the result is in point t's block iff its row is among the block's 1000 rows. -/
theorem mem_blk (t : Fin cfg3.N) (i : S50000x512.Idx) :
    i ∈ ((cfg3.win 3).blk t).view.set ↔ ∀ a : Fin 2, win3_3.index t a * S1000x512.size a ≤ (i a).val
      ∧ (i a).val < win3_3.index t a * S1000x512.size a + S1000x512.size a := by
  show i ∈ ((View.whole main_v76).slice (win3_3.rect t)).set ↔ _
  rw [View.set_slice_whole, Rect.mem_set_unit]
  exact Iff.rfl

/-- Every entry of the result lies in the block of the point that owns its row: row / 1000. -/
theorem cover (i : S50000x512.Idx) :
    ∃ t : Fin cfg3.N, (cfg3.win 3).flush t = true ∧ i ∈ ((cfg3.win 3).blk t).view.set := by
  have hi0 : (i 0).val < 50000 := (i 0).isLt
  have hi1 : (i 1).val < 512 := (i 1).isLt
  have hN : cfg3.N = 50 := N_3
  obtain ⟨t, ht⟩ : ∃ t : Fin cfg3.N, t.val = (i 0).val / 1000 := ⟨⟨(i 0).val / 1000, by rw [hN]; omega⟩, rfl⟩
  obtain ⟨-, -, -, -, -, -, e30, e31⟩ := idx_facts t
  refine ⟨t, flush3_3 t, ?_⟩
  rw [mem_blk]
  intro a
  match a with
  | ⟨0, _⟩ =>
    show win3_3.index t (0 : Fin 2) * 1000 ≤ (i 0).val ∧ (i 0).val < win3_3.index t (0 : Fin 2) * 1000 + 1000
    omega
  | ⟨1, _⟩ =>
    show win3_3.index t (1 : Fin 2) * 512 ≤ (i 1).val ∧ (i 1).val < win3_3.index t (1 : Fin 2) * 512 + 512
    omega

/-- The result array after the call is G of the arrays the call found. -/
theorem final (c : Dev nD) : (dat3 V c).arrAt 3 cfg3.N = G V c :=
  (dat3 V c).arrAt_eq_of_cover 3 (G V c) (fun t _ => flushed_eq V c t) cover

end Cert.KernelIdeal.Layer3

end
-- ==== Proof.KLayer4.lean ====
/-
  The fifth pallas_call (the fourth graph-convolution layer's dense stage), as a whole-array function of the arrays
  the call finds on entry.

  The call walks 50 blocks of 1000 rows. At block t the body loads rows 1000t … 1000t + 999 of the aggregated
  features (all 512 columns), the one-row bias and the whole 512-by-512 weight matrix, and stores
  max(rows + bias, 0) times the weights into rows 1000t … 1000t + 999 of the result. Entry (r, q) of the stored
  block depends on row r of the loaded block only, so block t of the result is the restriction to its rows of ONE
  function of the whole arrays — the matrix product of the rectified, biased features with the weights — and the
  50 blocks tile the result.
-/
import proofs.«103818_j50783693308233_1_alg».proof.Proof.Gen.KernelIdeal.Frame
import proofs.«103818_j50783693308233_1_alg».proof.Proof.LibDenseRows
import Idealize.ShloMosaic.Lib.Pipeline.Value
import Idealize.ShloMosaic.Lib.ValueIdx

set_option maxRecDepth 16384

noncomputable section

namespace Cert.KernelIdeal.Layer4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (r, q): the rectified, biased row r of the loaded block against column q of the weights. -/
theorem pay_apply (x0 : Vec Ideal S1000x512 .f32) (x1 : Vec Ideal S1x512 .f32) (x2 : Vec Ideal S512x512 .f32)
    (r : Fin 1000) (q : Fin 512) :
    k4_pay1 x0 x1 x2 (ix2 r q) = ∑ k : Fin 512, max (x0 (ix2 r k) + x1 (ix2 (0 : Fin 1) k)) 0 * x2 (ix2 k q) := by
  unfold k4_pay1
  refine (Cert.Dense.tileProduct_apply 1000 512 512 none _ _ _ x2 r q).trans ?_
  refine Finset.sum_congr rfl fun k _ => ?_
  rw [Cert.Dense.tileAct_apply]

/-- What the result array holds after the call, as a function of the three arrays the call reads. -/
def G (c : Dev nD) : Vec Ideal S50000x512 .f32 :=
  Cert.Dense.mm (N := 50000) (K := 512) (C := 512)
    (Cert.Dense.actRow (N := 50000) (K := 512) (V c main_v89) (V c main_v30)) (V c main_arg10)

/-- The printed index maps over the grid: block t of the features and of the result is block row t, the bias and
    the weights are always block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of G. -/
theorem flushed_eq (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S1000x512) hz, View.ld_unit_zero (S := S1x512) hz, View.ld_unit_zero (S := S512x512) hz]
  obtain ⟨e00, e01, e10, e11, e20, e21, e30, e31⟩ := idx_facts t
  funext j
  obtain ⟨r, q, rfl⟩ : ∃ (r : Fin 1000) (q : Fin 512), j = ix2 r q := ⟨j 0, j 1, eq_ix2 j⟩
  show k4_pay1 (iblk4 V c 0 t) (iblk4 V c 1 t) (iblk4 V c 2 t) (ix2 r q) = G V c (((cfg4.win 3).blk t).view.emb (ix2 r q))
  refine (pay_apply (iblk4 V c 0 t) (iblk4 V c 1 t) (iblk4 V c 2 t) r q).trans ?_
  unfold G Cert.Dense.mm
  refine Finset.sum_congr rfl fun k _ => ?_
  have h0 : (iblk4 V c 0 t : Vec Ideal S1000x512 .f32) (ix2 r k)
      = (V c main_v89 : S50000x512.Idx → EReal) (ix2 (Cert.Dense.rowOf (((cfg4.win 3).blk t).view.emb (ix2 r q))) k) := by
    show (V c main_v89 : S50000x512.Idx → EReal) (((cfg4.win 0).blk t).view.emb (ix2 r k)) = _
    refine congrArg (V c main_v89 : S50000x512.Idx → EReal) (funext fun a => Fin.ext ?_)
    match a with
    | ⟨0, _⟩ => show win4_0.index t (0 : Fin 2) * 1000 + 1 * r.val = win4_3.index t (0 : Fin 2) * 1000 + 1 * r.val; omega
    | ⟨1, _⟩ => show win4_0.index t (1 : Fin 2) * 512 + 1 * k.val = k.val; omega
  have h1 : (iblk4 V c 1 t : Vec Ideal S1x512 .f32) (ix2 (0 : Fin 1) k)
      = (V c main_v30 : S1x512.Idx → EReal) (ix2 (0 : Fin 1) k) := by
    show (V c main_v30 : S1x512.Idx → EReal) (((cfg4.win 1).blk t).view.emb (ix2 (0 : Fin 1) k)) = _
    refine congrArg (V c main_v30 : S1x512.Idx → EReal) (funext fun a => Fin.ext ?_)
    match a with
    | ⟨0, _⟩ => show win4_1.index t (0 : Fin 2) * 1 + 1 * 0 = 0; omega
    | ⟨1, _⟩ => show win4_1.index t (1 : Fin 2) * 512 + 1 * k.val = k.val; omega
  have h2 : (iblk4 V c 2 t : Vec Ideal S512x512 .f32) (ix2 k q)
      = (V c main_arg10 : S512x512.Idx → EReal) (ix2 k (Cert.Dense.colOf (((cfg4.win 3).blk t).view.emb (ix2 r q)))) := by
    show (V c main_arg10 : S512x512.Idx → EReal) (((cfg4.win 2).blk t).view.emb (ix2 k q)) = _
    refine congrArg (V c main_arg10 : S512x512.Idx → EReal) (funext fun a => Fin.ext ?_)
    match a with
    | ⟨0, _⟩ => show win4_2.index t (0 : Fin 2) * 512 + 1 * k.val = k.val; omega
    | ⟨1, _⟩ => show win4_2.index t (1 : Fin 2) * 512 + 1 * q.val = win4_3.index t (1 : Fin 2) * 512 + 1 * q.val; omega
  rw [h0, h1, h2]
  rfl

/-- An entry of the result is in point t's block iff its row is among the block's 1000 rows. -/
theorem mem_blk (t : Fin cfg4.N) (i : S50000x512.Idx) :
    i ∈ ((cfg4.win 3).blk t).view.set ↔ ∀ a : Fin 2, win4_3.index t a * S1000x512.size a ≤ (i a).val
      ∧ (i a).val < win4_3.index t a * S1000x512.size a + S1000x512.size a := by
  show i ∈ ((View.whole main_v90).slice (win4_3.rect t)).set ↔ _
  rw [View.set_slice_whole, Rect.mem_set_unit]
  exact Iff.rfl

/-- Every entry of the result lies in the block of the point that owns its row: row / 1000. -/
theorem cover (i : S50000x512.Idx) :
    ∃ t : Fin cfg4.N, (cfg4.win 3).flush t = true ∧ i ∈ ((cfg4.win 3).blk t).view.set := by
  have hi0 : (i 0).val < 50000 := (i 0).isLt
  have hi1 : (i 1).val < 512 := (i 1).isLt
  have hN : cfg4.N = 50 := N_4
  obtain ⟨t, ht⟩ : ∃ t : Fin cfg4.N, t.val = (i 0).val / 1000 := ⟨⟨(i 0).val / 1000, by rw [hN]; omega⟩, rfl⟩
  obtain ⟨-, -, -, -, -, -, e30, e31⟩ := idx_facts t
  refine ⟨t, flush4_3 t, ?_⟩
  rw [mem_blk]
  intro a
  match a with
  | ⟨0, _⟩ =>
    show win4_3.index t (0 : Fin 2) * 1000 ≤ (i 0).val ∧ (i 0).val < win4_3.index t (0 : Fin 2) * 1000 + 1000
    omega
  | ⟨1, _⟩ =>
    show win4_3.index t (1 : Fin 2) * 512 ≤ (i 1).val ∧ (i 1).val < win4_3.index t (1 : Fin 2) * 512 + 512
    omega

/-- The result array after the call is G of the arrays the call found. -/
theorem final (c : Dev nD) : (dat4 V c).arrAt 3 cfg4.N = G V c :=
  (dat4 V c).arrAt_eq_of_cover 3 (G V c) (fun t _ => flushed_eq V c t) cover

end Cert.KernelIdeal.Layer4

end
-- ==== Proof.KLayer5.lean ====
/-
  The sixth pallas_call (the last layer's rectifier and the two-layer head), as a whole-array function of the arrays
  the call finds on entry.

  The call walks 50 blocks of 1000 rows. At block t the body loads rows 1000t … 1000t + 999 of the aggregated
  features (512 columns), a one-row bias, the 512-by-75 and 75-by-11 weight matrices and their one-row biases, and
  stores  max(max(rows + b, 0)·U1 + c1, 0)·U2 + c2  into rows 1000t … 1000t + 999 of the result. Entry (r, q) of
  the stored block depends on row r of the loaded block only, so block t of the result is the restriction to its
  rows of ONE function of the whole arrays, and the 50 blocks tile the result.
-/
import proofs.«103818_j50783693308233_1_alg».proof.Proof.Gen.KernelIdeal.Frame
import proofs.«103818_j50783693308233_1_alg».proof.Proof.LibDenseRows
import Idealize.ShloMosaic.Lib.Pipeline.Value
import Idealize.ShloMosaic.Lib.ValueIdx

set_option maxRecDepth 16384

noncomputable section

namespace Cert.KernelIdeal.Layer5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (r, q). -/
theorem pay_apply (x0 : Vec Ideal S1000x512 .f32) (x1 : Vec Ideal S1x512 .f32) (x2 : Vec Ideal S512x75 .f32)
    (x3 : Vec Ideal S1x75 .f32) (x4 : Vec Ideal S75x11 .f32) (x5 : Vec Ideal S1x11 .f32) (r : Fin 1000) (q : Fin 11) :
    k5_pay1 x0 x1 x2 x3 x4 x5 (ix2 r q)
      = (∑ j : Fin 75, max ((∑ k : Fin 512, max (x0 (ix2 r k) + x1 (ix2 (0 : Fin 1) k)) 0 * x2 (ix2 k j))
            + x3 (ix2 (0 : Fin 1) j)) 0 * x4 (ix2 j q)) + x5 (ix2 (0 : Fin 1) q) := by
  unfold k5_pay1
  refine (Cert.Dense.tileAddRow_apply 1000 11 _ _ _ x5 r q).trans ?_
  refine congrArg (· + x5 (ix2 (0 : Fin 1) q)) ?_
  refine (Cert.Dense.tileProduct_apply 1000 75 11 none _ _ _ x4 r q).trans ?_
  refine Finset.sum_congr rfl fun j _ => ?_
  refine congrArg (· * x4 (ix2 j q)) ?_
  refine (Cert.Dense.tileRelu_apply 1000 75 _ (ix2 r j)).trans ?_
  refine congrArg (fun z => max z 0) ?_
  refine (Cert.Dense.tileAddRow_apply 1000 75 _ _ _ x3 r j).trans ?_
  refine congrArg (· + x3 (ix2 (0 : Fin 1) j)) ?_
  refine (Cert.Dense.tileProduct_apply 1000 512 75 none _ _ _ x2 r j).trans ?_
  refine Finset.sum_congr rfl fun k _ => ?_
  rw [Cert.Dense.tileAct_apply]

/-- What the result array holds after the call, as a function of the six arrays the call reads. -/
def G (c : Dev nD) : Vec Ideal S50000x11 .f32 :=
  Cert.Dense.addRowRow (N := 50000) (K := 11)
    (Cert.Dense.mm (N := 50000) (K := 75) (C := 11)
      (Cert.Dense.actRow (N := 50000) (K := 75)
        (Cert.Dense.mm (N := 50000) (K := 512) (C := 75)
          (Cert.Dense.actRow (N := 50000) (K := 512) (V c main_v103) (V c main_v31)) (V c main_arg12))
        (V c main_v32))
      (V c main_arg14))
    (V c main_v33)

/-- The printed index maps over the grid: block t of the features and of the result is block row t, every other
    operand is always block (0, 0). -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- What point t writes back is block t of G. -/
theorem flushed_eq (c : Dev nD) (t : Fin cfg5.N) :
    (dat5 V c).flushed 6 t = ((cfg5.win 6).blk t).view.read (Elt Ideal) (G V c) := by
  show (cfg5.win 6).cut (grid5.coords t) ((dat5 V c).after 6 t) = _
  rw [after5_6]
  unfold out5_6
  rw [View.canon_unit_zero hz]
  simp only [View.ld_unit_zero (S := S1000x512) hz, View.ld_unit_zero (S := S1x512) hz, View.ld_unit_zero (S := S512x75) hz,
    View.ld_unit_zero (S := S1x75) hz, View.ld_unit_zero (S := S75x11) hz, View.ld_unit_zero (S := S1x11) hz]
  obtain ⟨e00, e01, e10, e11, e20, e21, e30, e31, e40, e41, e50, e51, e60, e61⟩ := idx_facts t
  funext j
  obtain ⟨r, q, rfl⟩ : ∃ (r : Fin 1000) (q : Fin 11), j = ix2 r q := ⟨j 0, j 1, eq_ix2 j⟩
  show k5_pay1 (iblk5 V c 0 t) (iblk5 V c 1 t) (iblk5 V c 2 t) (iblk5 V c 3 t) (iblk5 V c 4 t) (iblk5 V c 5 t) (ix2 r q)
    = G V c (((cfg5.win 6).blk t).view.emb (ix2 r q))
  refine (pay_apply (iblk5 V c 0 t) (iblk5 V c 1 t) (iblk5 V c 2 t) (iblk5 V c 3 t) (iblk5 V c 4 t) (iblk5 V c 5 t) r q).trans ?_
  have h0 : ∀ (k : Fin 512), (iblk5 V c 0 t : Vec Ideal S1000x512 .f32) (ix2 r k)
      = (V c main_v103 : S50000x512.Idx → EReal) (ix2 (Cert.Dense.rowOf (((cfg5.win 6).blk t).view.emb (ix2 r q))) k) := fun k => by
    show (V c main_v103 : S50000x512.Idx → EReal) (((cfg5.win 0).blk t).view.emb (ix2 r k)) = _
    refine congrArg (V c main_v103 : S50000x512.Idx → EReal) (funext fun a => Fin.ext ?_)
    match a with
    | ⟨0, _⟩ => show win5_0.index t (0 : Fin 2) * 1000 + 1 * r.val = win5_6.index t (0 : Fin 2) * 1000 + 1 * r.val; omega
    | ⟨1, _⟩ => show win5_0.index t (1 : Fin 2) * 512 + 1 * k.val = k.val; omega
  have h1 : ∀ (k : Fin 512), (iblk5 V c 1 t : Vec Ideal S1x512 .f32) (ix2 (0 : Fin 1) k)
      = (V c main_v31 : S1x512.Idx → EReal) (ix2 (0 : Fin 1) k) := fun k => by
    show (V c main_v31 : S1x512.Idx → EReal) (((cfg5.win 1).blk t).view.emb (ix2 (0 : Fin 1) k)) = _
    refine congrArg (V c main_v31 : S1x512.Idx → EReal) (funext fun a => Fin.ext ?_)
    match a with
    | ⟨0, _⟩ => show win5_1.index t (0 : Fin 2) * 1 + 1 * 0 = 0; omega
    | ⟨1, _⟩ => show win5_1.index t (1 : Fin 2) * 512 + 1 * k.val = k.val; omega
  have h2 : ∀ (k : Fin 512) (j : Fin 75), (iblk5 V c 2 t : Vec Ideal S512x75 .f32) (ix2 k j)
      = (V c main_arg12 : S512x75.Idx → EReal) (ix2 k j) := fun k j => by
    show (V c main_arg12 : S512x75.Idx → EReal) (((cfg5.win 2).blk t).view.emb (ix2 k j)) = _
    refine congrArg (V c main_arg12 : S512x75.Idx → EReal) (funext fun a => Fin.ext ?_)
    match a with
    | ⟨0, _⟩ => show win5_2.index t (0 : Fin 2) * 512 + 1 * k.val = k.val; omega
    | ⟨1, _⟩ => show win5_2.index t (1 : Fin 2) * 75 + 1 * j.val = j.val; omega
  have h3 : ∀ (j : Fin 75), (iblk5 V c 3 t : Vec Ideal S1x75 .f32) (ix2 (0 : Fin 1) j)
      = (V c main_v32 : S1x75.Idx → EReal) (ix2 (0 : Fin 1) j) := fun j => by
    show (V c main_v32 : S1x75.Idx → EReal) (((cfg5.win 3).blk t).view.emb (ix2 (0 : Fin 1) j)) = _
    refine congrArg (V c main_v32 : S1x75.Idx → EReal) (funext fun a => Fin.ext ?_)
    match a with
    | ⟨0, _⟩ => show win5_3.index t (0 : Fin 2) * 1 + 1 * 0 = 0; omega
    | ⟨1, _⟩ => show win5_3.index t (1 : Fin 2) * 75 + 1 * j.val = j.val; omega
  have h4 : ∀ (j : Fin 75), (iblk5 V c 4 t : Vec Ideal S75x11 .f32) (ix2 j q)
      = (V c main_arg14 : S75x11.Idx → EReal) (ix2 j (Cert.Dense.colOf (((cfg5.win 6).blk t).view.emb (ix2 r q)))) := fun j => by
    show (V c main_arg14 : S75x11.Idx → EReal) (((cfg5.win 4).blk t).view.emb (ix2 j q)) = _
    refine congrArg (V c main_arg14 : S75x11.Idx → EReal) (funext fun a => Fin.ext ?_)
    match a with
    | ⟨0, _⟩ => show win5_4.index t (0 : Fin 2) * 75 + 1 * j.val = j.val; omega
    | ⟨1, _⟩ => show win5_4.index t (1 : Fin 2) * 11 + 1 * q.val = win5_6.index t (1 : Fin 2) * 11 + 1 * q.val; omega
  have h5 : (iblk5 V c 5 t : Vec Ideal S1x11 .f32) (ix2 (0 : Fin 1) q)
      = (V c main_v33 : S1x11.Idx → EReal) (ix2 (0 : Fin 1) (Cert.Dense.colOf (((cfg5.win 6).blk t).view.emb (ix2 r q)))) := by
    show (V c main_v33 : S1x11.Idx → EReal) (((cfg5.win 5).blk t).view.emb (ix2 (0 : Fin 1) q)) = _
    refine congrArg (V c main_v33 : S1x11.Idx → EReal) (funext fun a => Fin.ext ?_)
    match a with
    | ⟨0, _⟩ => show win5_5.index t (0 : Fin 2) * 1 + 1 * 0 = 0; omega
    | ⟨1, _⟩ => show win5_5.index t (1 : Fin 2) * 11 + 1 * q.val = win5_6.index t (1 : Fin 2) * 11 + 1 * q.val; omega
  simp only [h0, h1, h2, h3, h4, h5]
  rfl

/-- An entry of the result is in point t's block iff its row is among the block's 1000 rows. -/
theorem mem_blk (t : Fin cfg5.N) (i : S50000x11.Idx) :
    i ∈ ((cfg5.win 6).blk t).view.set ↔ ∀ a : Fin 2, win5_6.index t a * S1000x11.size a ≤ (i a).val
      ∧ (i a).val < win5_6.index t a * S1000x11.size a + S1000x11.size a := by
  show i ∈ ((View.whole main_v104).slice (win5_6.rect t)).set ↔ _
  rw [View.set_slice_whole, Rect.mem_set_unit]
  exact Iff.rfl

/-- Every entry of the result lies in the block of the point that owns its row: row / 1000. -/
theorem cover (i : S50000x11.Idx) :
    ∃ t : Fin cfg5.N, (cfg5.win 6).flush t = true ∧ i ∈ ((cfg5.win 6).blk t).view.set := by
  have hi0 : (i 0).val < 50000 := (i 0).isLt
  have hi1 : (i 1).val < 11 := (i 1).isLt
  have hN : cfg5.N = 50 := N_5
  obtain ⟨t, ht⟩ : ∃ t : Fin cfg5.N, t.val = (i 0).val / 1000 := ⟨⟨(i 0).val / 1000, by rw [hN]; omega⟩, rfl⟩
  obtain ⟨-, -, -, -, -, -, -, -, -, -, -, -, e60, e61⟩ := idx_facts t
  refine ⟨t, flush5_6 t, ?_⟩
  rw [mem_blk]
  intro a
  match a with
  | ⟨0, _⟩ =>
    show win5_6.index t (0 : Fin 2) * 1000 ≤ (i 0).val ∧ (i 0).val < win5_6.index t (0 : Fin 2) * 1000 + 1000
    omega
  | ⟨1, _⟩ =>
    show win5_6.index t (1 : Fin 2) * 11 ≤ (i 1).val ∧ (i 1).val < win5_6.index t (1 : Fin 2) * 11 + 11
    omega

/-- The result array after the call is G of the arrays the call found. -/
theorem final (c : Dev nD) : (dat5 V c).arrAt 6 cfg5.N = G V c :=
  (dat5 V c).arrAt_eq_of_cover 6 (G V c) (fun t _ => flushed_eq V c t) cover

end Cert.KernelIdeal.Layer5

end
-- ==== Proof.KHost0.lean ====
/-
  What the host lines before the first pallas_call leave in the buffers later stages read: the two index vectors
  (sources and targets of the edges with the self-loops appended), the per-edge normalization, the seven biases as
  one-row matrices, and the arguments untouched. Each is the same composition of host operations that the reference
  program applies to the same argument, so it is stated as the reference's stage of that argument.
-/
import proofs.«103818_j50783693308233_1_alg».proof.Proof.Gen.KernelIdeal.Frame
import proofs.«103818_j50783693308233_1_alg».proof.Proof.Gen.ReferenceIdeal.Read
import Idealize.ShloMosaic.Lib.StableHlo.Run

set_option maxRecDepth 16384

noncomputable section

namespace Cert.KernelIdeal.Host0

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

set_option maxHeartbeats 4000000 in
/-- The edge sources with the self-loops appended, as the reference computes them from the edge list. -/
theorem src_eq (c : Dev nD) :
    W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl

set_option maxHeartbeats 4000000 in
/-- The edge targets with the self-loops appended. -/
theorem dst_eq (c : Dev nD) :
    W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp
  rfl

set_option maxHeartbeats 4000000 in
/-- The per-edge normalization: the reciprocal square roots of the target degrees, gathered at both ends of each
    edge and multiplied. -/
theorem norm_eq (c : Dev nD) :
    W1 m ρ c (Proc.devRef .tc main_v26) = Cert.ReferenceIdeal.Read.val_main_v26 (F := Ideal) (m ((c : Thread nD τ).loc main_arg1)) := by
  show StableHlo.after hostOps0 (W0 m ρ c) (Proc.devRef .tc main_v26) = _
  after_results_simp
  rfl

set_option maxHeartbeats 4000000 in
/-- Bias argument 3 as a one-row matrix. -/
theorem bias27_eq (c : Dev nD) :
    W1 m ρ c (Proc.devRef .tc main_v27) = shapeCast S1x1024 (m ((c : Thread nD τ).loc main_arg3)) shapeCasts_S1024_S1x1024 := by
  show StableHlo.after hostOps0 (W0 m ρ c) (Proc.devRef .tc main_v27) = _
  after_results_simp
  rfl

set_option maxHeartbeats 4000000 in
/-- Bias argument 5 as a one-row matrix. -/
theorem bias28_eq (c : Dev nD) :
    W1 m ρ c (Proc.devRef .tc main_v28) = shapeCast S1x512 (m ((c : Thread nD τ).loc main_arg5)) shapeCasts_S512_S1x512 := by
  show StableHlo.after hostOps0 (W0 m ρ c) (Proc.devRef .tc main_v28) = _
  after_results_simp
  rfl

set_option maxHeartbeats 4000000 in
/-- Bias argument 7 as a one-row matrix. -/
theorem bias29_eq (c : Dev nD) :
    W1 m ρ c (Proc.devRef .tc main_v29) = shapeCast S1x512 (m ((c : Thread nD τ).loc main_arg7)) shapeCasts_S512_S1x512 := by
  show StableHlo.after hostOps0 (W0 m ρ c) (Proc.devRef .tc main_v29) = _
  after_results_simp
  rfl

set_option maxHeartbeats 4000000 in
/-- Bias argument 9 as a one-row matrix. -/
theorem bias30_eq (c : Dev nD) :
    W1 m ρ c (Proc.devRef .tc main_v30) = shapeCast S1x512 (m ((c : Thread nD τ).loc main_arg9)) shapeCasts_S512_S1x512 := by
  show StableHlo.after hostOps0 (W0 m ρ c) (Proc.devRef .tc main_v30) = _
  after_results_simp
  rfl

set_option maxHeartbeats 4000000 in
/-- Bias argument 11 as a one-row matrix. -/
theorem bias31_eq (c : Dev nD) :
    W1 m ρ c (Proc.devRef .tc main_v31) = shapeCast S1x512 (m ((c : Thread nD τ).loc main_arg11)) shapeCasts_S512_S1x512 := by
  show StableHlo.after hostOps0 (W0 m ρ c) (Proc.devRef .tc main_v31) = _
  after_results_simp
  rfl

set_option maxHeartbeats 4000000 in
/-- Bias argument 13 as a one-row matrix. -/
theorem bias32_eq (c : Dev nD) :
    W1 m ρ c (Proc.devRef .tc main_v32) = shapeCast S1x75 (m ((c : Thread nD τ).loc main_arg13)) shapeCasts_S75_S1x75 := by
  show StableHlo.after hostOps0 (W0 m ρ c) (Proc.devRef .tc main_v32) = _
  after_results_simp
  rfl

set_option maxHeartbeats 4000000 in
/-- Bias argument 15 as a one-row matrix. -/
theorem bias33_eq (c : Dev nD) :
    W1 m ρ c (Proc.devRef .tc main_v33) = shapeCast S1x11 (m ((c : Thread nD τ).loc main_arg15)) shapeCasts_S11_S1x11 := by
  show StableHlo.after hostOps0 (W0 m ρ c) (Proc.devRef .tc main_v33) = _
  after_results_simp
  rfl

set_option maxHeartbeats 4000000 in
/-- Argument 0 is not written by the host lines. -/
theorem arg0_eq (c : Dev nD) : W1 m ρ c (Proc.devRef .tc main_arg0) = m ((c : Thread nD τ).loc main_arg0) := by
  show StableHlo.after hostOps0 (W0 m ρ c) (Proc.devRef .tc main_arg0) = _
  after_results_simp

set_option maxHeartbeats 4000000 in
/-- Argument 2 is not written by the host lines. -/
theorem arg2_eq (c : Dev nD) : W1 m ρ c (Proc.devRef .tc main_arg2) = m ((c : Thread nD τ).loc main_arg2) := by
  show StableHlo.after hostOps0 (W0 m ρ c) (Proc.devRef .tc main_arg2) = _
  after_results_simp

set_option maxHeartbeats 4000000 in
/-- Argument 4 is not written by the host lines. -/
theorem arg4_eq (c : Dev nD) : W1 m ρ c (Proc.devRef .tc main_arg4) = m ((c : Thread nD τ).loc main_arg4) := by
  show StableHlo.after hostOps0 (W0 m ρ c) (Proc.devRef .tc main_arg4) = _
  after_results_simp

set_option maxHeartbeats 4000000 in
/-- Argument 6 is not written by the host lines. -/
theorem arg6_eq (c : Dev nD) : W1 m ρ c (Proc.devRef .tc main_arg6) = m ((c : Thread nD τ).loc main_arg6) := by
  show StableHlo.after hostOps0 (W0 m ρ c) (Proc.devRef .tc main_arg6) = _
  after_results_simp

set_option maxHeartbeats 4000000 in
/-- Argument 8 is not written by the host lines. -/
theorem arg8_eq (c : Dev nD) : W1 m ρ c (Proc.devRef .tc main_arg8) = m ((c : Thread nD τ).loc main_arg8) := by
  show StableHlo.after hostOps0 (W0 m ρ c) (Proc.devRef .tc main_arg8) = _
  after_results_simp

set_option maxHeartbeats 4000000 in
/-- Argument 10 is not written by the host lines. -/
theorem arg10_eq (c : Dev nD) : W1 m ρ c (Proc.devRef .tc main_arg10) = m ((c : Thread nD τ).loc main_arg10) := by
  show StableHlo.after hostOps0 (W0 m ρ c) (Proc.devRef .tc main_arg10) = _
  after_results_simp

set_option maxHeartbeats 4000000 in
/-- Argument 12 is not written by the host lines. -/
theorem arg12_eq (c : Dev nD) : W1 m ρ c (Proc.devRef .tc main_arg12) = m ((c : Thread nD τ).loc main_arg12) := by
  show StableHlo.after hostOps0 (W0 m ρ c) (Proc.devRef .tc main_arg12) = _
  after_results_simp

set_option maxHeartbeats 4000000 in
/-- Argument 14 is not written by the host lines. -/
theorem arg14_eq (c : Dev nD) : W1 m ρ c (Proc.devRef .tc main_arg14) = m ((c : Thread nD τ).loc main_arg14) := by
  show StableHlo.after hostOps0 (W0 m ρ c) (Proc.devRef .tc main_arg14) = _
  after_results_simp

end Cert.KernelIdeal.Host0

end
-- ==== Proof.KCarry.lean ====
/-
  Buffers that later stages read but no later stage writes keep what the host lines before the first pallas_call
  left in them: a host line changes only its own result buffer, and a pallas_call changes only its result array.
  Stated once per boundary of the program (after each pallas_call and after each stretch of host lines) for any
  buffer outside the lists of buffers written up to there.
-/
import proofs.«103818_j50783693308233_1_alg».proof.Proof.Gen.KernelIdeal.Frame
import Idealize.ShloMosaic.Lib.StableHlo.Run

set_option maxRecDepth 16384

noncomputable section

namespace Cert.KernelIdeal.Carry

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The buffers the host lines between pallas_call 0 and pallas_call 1 write. -/
def written1 : List (Ref sig .tc) := [main_c_4, main_v35, main_v36, main_c_5, main_v37, main_v38, main_v39, main_v40, main_v41, main_v42, main_v43, main_v44, main_cst_6, main_v45, main_v46, main_v47]

theorem written1_holds : (hostOps1 : List (HloOp τ sig (Elt F))).Forall fun op =>
    op.writes ⊆ (written1.map (Proc.devRef (τ := τ) .tc)).toFinset := by
  simp only [hostOps1, List.Forall, StableHlo.nullary_writes, StableHlo.unary_writes, StableHlo.binary_writes,
    StableHlo.ternary_writes, Finset.singleton_subset_iff]
  repeat' apply And.intro
  all_goals exact List.mem_toFinset.mpr (List.mem_map.mpr ⟨_, by decide, rfl⟩)

/-- The buffers the host lines between pallas_call 1 and pallas_call 2 write. -/
def written2 : List (Ref sig .tc) := [main_c_7, main_v49, main_v50, main_c_8, main_v51, main_v52, main_v53, main_v54, main_v55, main_v56, main_v57, main_v58, main_cst_9, main_v59, main_v60, main_v61]

theorem written2_holds : (hostOps2 : List (HloOp τ sig (Elt F))).Forall fun op =>
    op.writes ⊆ (written2.map (Proc.devRef (τ := τ) .tc)).toFinset := by
  simp only [hostOps2, List.Forall, StableHlo.nullary_writes, StableHlo.unary_writes, StableHlo.binary_writes,
    StableHlo.ternary_writes, Finset.singleton_subset_iff]
  repeat' apply And.intro
  all_goals exact List.mem_toFinset.mpr (List.mem_map.mpr ⟨_, by decide, rfl⟩)

/-- The buffers the host lines between pallas_call 2 and pallas_call 3 write. -/
def written3 : List (Ref sig .tc) := [main_c_10, main_v63, main_v64, main_c_11, main_v65, main_v66, main_v67, main_v68, main_v69, main_v70, main_v71, main_v72, main_cst_12, main_v73, main_v74, main_v75]

theorem written3_holds : (hostOps3 : List (HloOp τ sig (Elt F))).Forall fun op =>
    op.writes ⊆ (written3.map (Proc.devRef (τ := τ) .tc)).toFinset := by
  simp only [hostOps3, List.Forall, StableHlo.nullary_writes, StableHlo.unary_writes, StableHlo.binary_writes,
    StableHlo.ternary_writes, Finset.singleton_subset_iff]
  repeat' apply And.intro
  all_goals exact List.mem_toFinset.mpr (List.mem_map.mpr ⟨_, by decide, rfl⟩)

/-- The buffers the host lines between pallas_call 3 and pallas_call 4 write. -/
def written4 : List (Ref sig .tc) := [main_c_13, main_v77, main_v78, main_c_14, main_v79, main_v80, main_v81, main_v82, main_v83, main_v84, main_v85, main_v86, main_cst_15, main_v87, main_v88, main_v89]

theorem written4_holds : (hostOps4 : List (HloOp τ sig (Elt F))).Forall fun op =>
    op.writes ⊆ (written4.map (Proc.devRef (τ := τ) .tc)).toFinset := by
  simp only [hostOps4, List.Forall, StableHlo.nullary_writes, StableHlo.unary_writes, StableHlo.binary_writes,
    StableHlo.ternary_writes, Finset.singleton_subset_iff]
  repeat' apply And.intro
  all_goals exact List.mem_toFinset.mpr (List.mem_map.mpr ⟨_, by decide, rfl⟩)

/-- The buffers the host lines between pallas_call 4 and pallas_call 5 write. -/
def written5 : List (Ref sig .tc) := [main_c_16, main_v91, main_v92, main_c_17, main_v93, main_v94, main_v95, main_v96, main_v97, main_v98, main_v99, main_v100, main_cst_18, main_v101, main_v102, main_v103]

theorem written5_holds : (hostOps5 : List (HloOp τ sig (Elt F))).Forall fun op =>
    op.writes ⊆ (written5.map (Proc.devRef (τ := τ) .tc)).toFinset := by
  simp only [hostOps5, List.Forall, StableHlo.nullary_writes, StableHlo.unary_writes, StableHlo.binary_writes,
    StableHlo.ternary_writes, Finset.singleton_subset_iff]
  repeat' apply And.intro
  all_goals exact List.mem_toFinset.mpr (List.mem_map.mpr ⟨_, by decide, rfl⟩)

/-- After pallas_call 0: a buffer outside its arrays and unwritten so far holds what it held before the first call. -/
theorem after_call0 (c : Dev nD) (r : Ref sig .tc) (a0 : ∀ w, Pipeline.arrRef spec0 w ≠ r) :
    W2 m ρ c (Proc.devRef .tc r) = W1 m ρ c (Proc.devRef .tc r) :=
  W2_of_ne m ρ c r a0

/-- Before pallas_call 1: the same through the host lines in between. -/
theorem before_call1 (c : Dev nD) (r : Ref sig .tc) (h1 : r ∉ written1) (a0 : ∀ w, Pipeline.arrRef spec0 w ≠ r) :
    W3 m ρ c (Proc.devRef .tc r) = W1 m ρ c (Proc.devRef .tc r) :=
  (StableHlo.after_of_writes_sub hostOps1 (W2 m ρ c) written1_holds h1).trans (after_call0 m ρ c r a0)

/-- After pallas_call 1: a buffer outside its arrays and unwritten so far holds what it held before the first call. -/
theorem after_call1 (c : Dev nD) (r : Ref sig .tc) (a1 : ∀ w, Pipeline.arrRef spec1 w ≠ r) (h1 : r ∉ written1) (a0 : ∀ w, Pipeline.arrRef spec0 w ≠ r) :
    W4 m ρ c (Proc.devRef .tc r) = W1 m ρ c (Proc.devRef .tc r) :=
  (W4_of_ne m ρ c r a1).trans (before_call1 m ρ c r h1 a0)

/-- Before pallas_call 2: the same through the host lines in between. -/
theorem before_call2 (c : Dev nD) (r : Ref sig .tc) (h2 : r ∉ written2) (a1 : ∀ w, Pipeline.arrRef spec1 w ≠ r) (h1 : r ∉ written1) (a0 : ∀ w, Pipeline.arrRef spec0 w ≠ r) :
    W5 m ρ c (Proc.devRef .tc r) = W1 m ρ c (Proc.devRef .tc r) :=
  (StableHlo.after_of_writes_sub hostOps2 (W4 m ρ c) written2_holds h2).trans (after_call1 m ρ c r a1 h1 a0)

/-- After pallas_call 2: a buffer outside its arrays and unwritten so far holds what it held before the first call. -/
theorem after_call2 (c : Dev nD) (r : Ref sig .tc) (a2 : ∀ w, Pipeline.arrRef spec2 w ≠ r) (h2 : r ∉ written2) (a1 : ∀ w, Pipeline.arrRef spec1 w ≠ r) (h1 : r ∉ written1) (a0 : ∀ w, Pipeline.arrRef spec0 w ≠ r) :
    W6 m ρ c (Proc.devRef .tc r) = W1 m ρ c (Proc.devRef .tc r) :=
  (W6_of_ne m ρ c r a2).trans (before_call2 m ρ c r h2 a1 h1 a0)

/-- Before pallas_call 3: the same through the host lines in between. -/
theorem before_call3 (c : Dev nD) (r : Ref sig .tc) (h3 : r ∉ written3) (a2 : ∀ w, Pipeline.arrRef spec2 w ≠ r) (h2 : r ∉ written2) (a1 : ∀ w, Pipeline.arrRef spec1 w ≠ r) (h1 : r ∉ written1) (a0 : ∀ w, Pipeline.arrRef spec0 w ≠ r) :
    W7 m ρ c (Proc.devRef .tc r) = W1 m ρ c (Proc.devRef .tc r) :=
  (StableHlo.after_of_writes_sub hostOps3 (W6 m ρ c) written3_holds h3).trans (after_call2 m ρ c r a2 h2 a1 h1 a0)

/-- After pallas_call 3: a buffer outside its arrays and unwritten so far holds what it held before the first call. -/
theorem after_call3 (c : Dev nD) (r : Ref sig .tc) (a3 : ∀ w, Pipeline.arrRef spec3 w ≠ r) (h3 : r ∉ written3) (a2 : ∀ w, Pipeline.arrRef spec2 w ≠ r) (h2 : r ∉ written2) (a1 : ∀ w, Pipeline.arrRef spec1 w ≠ r) (h1 : r ∉ written1) (a0 : ∀ w, Pipeline.arrRef spec0 w ≠ r) :
    W8 m ρ c (Proc.devRef .tc r) = W1 m ρ c (Proc.devRef .tc r) :=
  (W8_of_ne m ρ c r a3).trans (before_call3 m ρ c r h3 a2 h2 a1 h1 a0)

/-- Before pallas_call 4: the same through the host lines in between. -/
theorem before_call4 (c : Dev nD) (r : Ref sig .tc) (h4 : r ∉ written4) (a3 : ∀ w, Pipeline.arrRef spec3 w ≠ r) (h3 : r ∉ written3) (a2 : ∀ w, Pipeline.arrRef spec2 w ≠ r) (h2 : r ∉ written2) (a1 : ∀ w, Pipeline.arrRef spec1 w ≠ r) (h1 : r ∉ written1) (a0 : ∀ w, Pipeline.arrRef spec0 w ≠ r) :
    W9 m ρ c (Proc.devRef .tc r) = W1 m ρ c (Proc.devRef .tc r) :=
  (StableHlo.after_of_writes_sub hostOps4 (W8 m ρ c) written4_holds h4).trans (after_call3 m ρ c r a3 h3 a2 h2 a1 h1 a0)

/-- After pallas_call 4: a buffer outside its arrays and unwritten so far holds what it held before the first call. -/
theorem after_call4 (c : Dev nD) (r : Ref sig .tc) (a4 : ∀ w, Pipeline.arrRef spec4 w ≠ r) (h4 : r ∉ written4) (a3 : ∀ w, Pipeline.arrRef spec3 w ≠ r) (h3 : r ∉ written3) (a2 : ∀ w, Pipeline.arrRef spec2 w ≠ r) (h2 : r ∉ written2) (a1 : ∀ w, Pipeline.arrRef spec1 w ≠ r) (h1 : r ∉ written1) (a0 : ∀ w, Pipeline.arrRef spec0 w ≠ r) :
    W10 m ρ c (Proc.devRef .tc r) = W1 m ρ c (Proc.devRef .tc r) :=
  (W10_of_ne m ρ c r a4).trans (before_call4 m ρ c r h4 a3 h3 a2 h2 a1 h1 a0)

/-- Before pallas_call 5: the same through the host lines in between. -/
theorem before_call5 (c : Dev nD) (r : Ref sig .tc) (h5 : r ∉ written5) (a4 : ∀ w, Pipeline.arrRef spec4 w ≠ r) (h4 : r ∉ written4) (a3 : ∀ w, Pipeline.arrRef spec3 w ≠ r) (h3 : r ∉ written3) (a2 : ∀ w, Pipeline.arrRef spec2 w ≠ r) (h2 : r ∉ written2) (a1 : ∀ w, Pipeline.arrRef spec1 w ≠ r) (h1 : r ∉ written1) (a0 : ∀ w, Pipeline.arrRef spec0 w ≠ r) :
    W11 m ρ c (Proc.devRef .tc r) = W1 m ρ c (Proc.devRef .tc r) :=
  (StableHlo.after_of_writes_sub hostOps5 (W10 m ρ c) written5_holds h5).trans (after_call4 m ρ c r a4 h4 a3 h3 a2 h2 a1 h1 a0)

end Cert.KernelIdeal.Carry

end
-- ==== Proof.KHost1.lean ====
/-
  The aggregated features that pallas_call 1 reads: the host lines between pallas_call 0 and pallas_call 1 gather the
  previous result's rows at the edge sources, scale each gathered row by its edge's normalization, and add the rows
  into an all-zero array at the edge targets. The index vectors and the normalization are those computed before the
  first call, so the whole stretch is the reference's aggregation stage applied to the previous result.
-/
import proofs.«103818_j50783693308233_1_alg».proof.Proof.Gen.KernelIdeal.Frame
import proofs.«103818_j50783693308233_1_alg».proof.Proof.Gen.ReferenceIdeal.Read
import proofs.«103818_j50783693308233_1_alg».proof.Proof.KHost0
import proofs.«103818_j50783693308233_1_alg».proof.Proof.KCarry
import Idealize.ShloMosaic.Lib.StableHlo.Run

set_option maxRecDepth 16384

noncomputable section

namespace Cert.KernelIdeal.Host1

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

set_option maxHeartbeats 4000000 in
/-- The features entering pallas_call 1 are the reference's aggregation of whatever pallas_call 0 left. -/
theorem features (c : Dev nD) (T : FVec Ideal Cert.ReferenceIdeal.S50000x1024 .f32)
    (hT : W2 m ρ c (Proc.devRef .tc main_v34) = T) :
    W3 m ρ c (Proc.devRef .tc main_v47)
      = Host.scatterAdd (F := Ideal) (φ := .f32) Cert.ReferenceIdeal.scatter_S50000x1024_S210000x1_S210000x1024_1_0_0_1
          (Cert.ReferenceIdeal.Read.val_main_v38 (F := Ideal))
          (Cert.ReferenceIdeal.Read.val_main_v39 (F := Ideal) (m ((c : Thread nD τ).loc main_arg1)))
          (mulf (F := Ideal) (φ := .f32) (Host.gather (α := Ideal .f32) Cert.ReferenceIdeal.gather_S50000x1024_S210000x1_S210000x1024_1_0_n_n_0_1_11024 T
              (Cert.ReferenceIdeal.Read.val_main_v33 (F := Ideal) (m ((c : Thread nD τ).loc main_arg1))))
            (Cert.ReferenceIdeal.Read.val_main_v36 (F := Ideal) (m ((c : Thread nD τ).loc main_arg1)))) := by
  show StableHlo.after hostOps1 (W2 m ρ c) (Proc.devRef .tc main_v47) = _
  have e3 : W2 m ρ c (Proc.devRef .tc main_v3) = Cert.ReferenceIdeal.Read.val_main_v3 (F := Ideal) (m ((c : Thread nD τ).loc main_arg1)) :=
    (Cert.KernelIdeal.Carry.after_call0 m ρ c main_v3 (by decide)).trans (Cert.KernelIdeal.Host0.src_eq m ρ c)
  have e6 : W2 m ρ c (Proc.devRef .tc main_v6) = Cert.ReferenceIdeal.Read.val_main_v6 (F := Ideal) (m ((c : Thread nD τ).loc main_arg1)) :=
    (Cert.KernelIdeal.Carry.after_call0 m ρ c main_v6 (by decide)).trans (Cert.KernelIdeal.Host0.dst_eq m ρ c)
  have e26 : W2 m ρ c (Proc.devRef .tc main_v26) = Cert.ReferenceIdeal.Read.val_main_v26 (F := Ideal) (m ((c : Thread nD τ).loc main_arg1)) :=
    (Cert.KernelIdeal.Carry.after_call0 m ρ c main_v26 (by decide)).trans (Cert.KernelIdeal.Host0.norm_eq m ρ c)
  generalize W2 m ρ c = W at hT e3 e6 e26 ⊢
  after_results_simp
  rw [hT, e3, e6, e26]
  rfl

end Cert.KernelIdeal.Host1

end
-- ==== Proof.KHost2.lean ====
/-
  The aggregated features that pallas_call 2 reads: the host lines between pallas_call 1 and pallas_call 2 gather the
  previous result's rows at the edge sources, scale each gathered row by its edge's normalization, and add the rows
  into an all-zero array at the edge targets. The index vectors and the normalization are those computed before the
  first call, so the whole stretch is the reference's aggregation stage applied to the previous result.
-/
import proofs.«103818_j50783693308233_1_alg».proof.Proof.Gen.KernelIdeal.Frame
import proofs.«103818_j50783693308233_1_alg».proof.Proof.Gen.ReferenceIdeal.Read
import proofs.«103818_j50783693308233_1_alg».proof.Proof.KHost0
import proofs.«103818_j50783693308233_1_alg».proof.Proof.KCarry
import Idealize.ShloMosaic.Lib.StableHlo.Run

set_option maxRecDepth 16384

noncomputable section

namespace Cert.KernelIdeal.Host2

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

set_option maxHeartbeats 4000000 in
/-- The features entering pallas_call 2 are the reference's aggregation of whatever pallas_call 1 left. -/
theorem features (c : Dev nD) (T : FVec Ideal Cert.ReferenceIdeal.S50000x512 .f32)
    (hT : W4 m ρ c (Proc.devRef .tc main_v48) = T) :
    W5 m ρ c (Proc.devRef .tc main_v61)
      = Host.scatterAdd (F := Ideal) (φ := .f32) Cert.ReferenceIdeal.scatter_S50000x512_S210000x1_S210000x512_1_0_0_1
          (Cert.ReferenceIdeal.Read.val_main_v56 (F := Ideal))
          (Cert.ReferenceIdeal.Read.val_main_v57 (F := Ideal) (m ((c : Thread nD τ).loc main_arg1)))
          (mulf (F := Ideal) (φ := .f32) (Host.gather (α := Ideal .f32) Cert.ReferenceIdeal.gather_S50000x512_S210000x1_S210000x512_1_0_n_n_0_1_1512 T
              (Cert.ReferenceIdeal.Read.val_main_v51 (F := Ideal) (m ((c : Thread nD τ).loc main_arg1))))
            (Cert.ReferenceIdeal.Read.val_main_v54 (F := Ideal) (m ((c : Thread nD τ).loc main_arg1)))) := by
  show StableHlo.after hostOps2 (W4 m ρ c) (Proc.devRef .tc main_v61) = _
  have e3 : W4 m ρ c (Proc.devRef .tc main_v3) = Cert.ReferenceIdeal.Read.val_main_v3 (F := Ideal) (m ((c : Thread nD τ).loc main_arg1)) :=
    (Cert.KernelIdeal.Carry.after_call1 m ρ c main_v3 (by decide) (by decide) (by decide)).trans (Cert.KernelIdeal.Host0.src_eq m ρ c)
  have e6 : W4 m ρ c (Proc.devRef .tc main_v6) = Cert.ReferenceIdeal.Read.val_main_v6 (F := Ideal) (m ((c : Thread nD τ).loc main_arg1)) :=
    (Cert.KernelIdeal.Carry.after_call1 m ρ c main_v6 (by decide) (by decide) (by decide)).trans (Cert.KernelIdeal.Host0.dst_eq m ρ c)
  have e26 : W4 m ρ c (Proc.devRef .tc main_v26) = Cert.ReferenceIdeal.Read.val_main_v26 (F := Ideal) (m ((c : Thread nD τ).loc main_arg1)) :=
    (Cert.KernelIdeal.Carry.after_call1 m ρ c main_v26 (by decide) (by decide) (by decide)).trans (Cert.KernelIdeal.Host0.norm_eq m ρ c)
  generalize W4 m ρ c = W at hT e3 e6 e26 ⊢
  after_results_simp
  rw [hT, e3, e6, e26]
  rfl

end Cert.KernelIdeal.Host2

end
-- ==== Proof.KHost3.lean ====
/-
  The aggregated features that pallas_call 3 reads: the host lines between pallas_call 2 and pallas_call 3 gather the
  previous result's rows at the edge sources, scale each gathered row by its edge's normalization, and add the rows
  into an all-zero array at the edge targets. The index vectors and the normalization are those computed before the
  first call, so the whole stretch is the reference's aggregation stage applied to the previous result.
-/
import proofs.«103818_j50783693308233_1_alg».proof.Proof.Gen.KernelIdeal.Frame
import proofs.«103818_j50783693308233_1_alg».proof.Proof.Gen.ReferenceIdeal.Read
import proofs.«103818_j50783693308233_1_alg».proof.Proof.KHost0
import proofs.«103818_j50783693308233_1_alg».proof.Proof.KCarry
import Idealize.ShloMosaic.Lib.StableHlo.Run

set_option maxRecDepth 16384

noncomputable section

namespace Cert.KernelIdeal.Host3

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

set_option maxHeartbeats 4000000 in
/-- The features entering pallas_call 3 are the reference's aggregation of whatever pallas_call 2 left. -/
theorem features (c : Dev nD) (T : FVec Ideal Cert.ReferenceIdeal.S50000x512 .f32)
    (hT : W6 m ρ c (Proc.devRef .tc main_v62) = T) :
    W7 m ρ c (Proc.devRef .tc main_v75)
      = Host.scatterAdd (F := Ideal) (φ := .f32) Cert.ReferenceIdeal.scatter_S50000x512_S210000x1_S210000x512_1_0_0_1
          (Cert.ReferenceIdeal.Read.val_main_v74 (F := Ideal))
          (Cert.ReferenceIdeal.Read.val_main_v75 (F := Ideal) (m ((c : Thread nD τ).loc main_arg1)))
          (mulf (F := Ideal) (φ := .f32) (Host.gather (α := Ideal .f32) Cert.ReferenceIdeal.gather_S50000x512_S210000x1_S210000x512_1_0_n_n_0_1_1512 T
              (Cert.ReferenceIdeal.Read.val_main_v69 (F := Ideal) (m ((c : Thread nD τ).loc main_arg1))))
            (Cert.ReferenceIdeal.Read.val_main_v72 (F := Ideal) (m ((c : Thread nD τ).loc main_arg1)))) := by
  show StableHlo.after hostOps3 (W6 m ρ c) (Proc.devRef .tc main_v75) = _
  have e3 : W6 m ρ c (Proc.devRef .tc main_v3) = Cert.ReferenceIdeal.Read.val_main_v3 (F := Ideal) (m ((c : Thread nD τ).loc main_arg1)) :=
    (Cert.KernelIdeal.Carry.after_call2 m ρ c main_v3 (by decide) (by decide) (by decide) (by decide) (by decide)).trans (Cert.KernelIdeal.Host0.src_eq m ρ c)
  have e6 : W6 m ρ c (Proc.devRef .tc main_v6) = Cert.ReferenceIdeal.Read.val_main_v6 (F := Ideal) (m ((c : Thread nD τ).loc main_arg1)) :=
    (Cert.KernelIdeal.Carry.after_call2 m ρ c main_v6 (by decide) (by decide) (by decide) (by decide) (by decide)).trans (Cert.KernelIdeal.Host0.dst_eq m ρ c)
  have e26 : W6 m ρ c (Proc.devRef .tc main_v26) = Cert.ReferenceIdeal.Read.val_main_v26 (F := Ideal) (m ((c : Thread nD τ).loc main_arg1)) :=
    (Cert.KernelIdeal.Carry.after_call2 m ρ c main_v26 (by decide) (by decide) (by decide) (by decide) (by decide)).trans (Cert.KernelIdeal.Host0.norm_eq m ρ c)
  generalize W6 m ρ c = W at hT e3 e6 e26 ⊢
  after_results_simp
  rw [hT, e3, e6, e26]
  rfl

end Cert.KernelIdeal.Host3

end
-- ==== Proof.KHost4.lean ====
/-
  The aggregated features that pallas_call 4 reads: the host lines between pallas_call 3 and pallas_call 4 gather the
  previous result's rows at the edge sources, scale each gathered row by its edge's normalization, and add the rows
  into an all-zero array at the edge targets. The index vectors and the normalization are those computed before the
  first call, so the whole stretch is the reference's aggregation stage applied to the previous result.
-/
import proofs.«103818_j50783693308233_1_alg».proof.Proof.Gen.KernelIdeal.Frame
import proofs.«103818_j50783693308233_1_alg».proof.Proof.Gen.ReferenceIdeal.Read
import proofs.«103818_j50783693308233_1_alg».proof.Proof.KHost0
import proofs.«103818_j50783693308233_1_alg».proof.Proof.KCarry
import Idealize.ShloMosaic.Lib.StableHlo.Run

set_option maxRecDepth 16384

noncomputable section

namespace Cert.KernelIdeal.Host4

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

set_option maxHeartbeats 4000000 in
/-- The features entering pallas_call 4 are the reference's aggregation of whatever pallas_call 3 left. -/
theorem features (c : Dev nD) (T : FVec Ideal Cert.ReferenceIdeal.S50000x512 .f32)
    (hT : W8 m ρ c (Proc.devRef .tc main_v76) = T) :
    W9 m ρ c (Proc.devRef .tc main_v89)
      = Host.scatterAdd (F := Ideal) (φ := .f32) Cert.ReferenceIdeal.scatter_S50000x512_S210000x1_S210000x512_1_0_0_1
          (Cert.ReferenceIdeal.Read.val_main_v92 (F := Ideal))
          (Cert.ReferenceIdeal.Read.val_main_v93 (F := Ideal) (m ((c : Thread nD τ).loc main_arg1)))
          (mulf (F := Ideal) (φ := .f32) (Host.gather (α := Ideal .f32) Cert.ReferenceIdeal.gather_S50000x512_S210000x1_S210000x512_1_0_n_n_0_1_1512 T
              (Cert.ReferenceIdeal.Read.val_main_v87 (F := Ideal) (m ((c : Thread nD τ).loc main_arg1))))
            (Cert.ReferenceIdeal.Read.val_main_v90 (F := Ideal) (m ((c : Thread nD τ).loc main_arg1)))) := by
  show StableHlo.after hostOps4 (W8 m ρ c) (Proc.devRef .tc main_v89) = _
  have e3 : W8 m ρ c (Proc.devRef .tc main_v3) = Cert.ReferenceIdeal.Read.val_main_v3 (F := Ideal) (m ((c : Thread nD τ).loc main_arg1)) :=
    (Cert.KernelIdeal.Carry.after_call3 m ρ c main_v3 (by decide) (by decide) (by decide) (by decide) (by decide) (by decide) (by decide)).trans (Cert.KernelIdeal.Host0.src_eq m ρ c)
  have e6 : W8 m ρ c (Proc.devRef .tc main_v6) = Cert.ReferenceIdeal.Read.val_main_v6 (F := Ideal) (m ((c : Thread nD τ).loc main_arg1)) :=
    (Cert.KernelIdeal.Carry.after_call3 m ρ c main_v6 (by decide) (by decide) (by decide) (by decide) (by decide) (by decide) (by decide)).trans (Cert.KernelIdeal.Host0.dst_eq m ρ c)
  have e26 : W8 m ρ c (Proc.devRef .tc main_v26) = Cert.ReferenceIdeal.Read.val_main_v26 (F := Ideal) (m ((c : Thread nD τ).loc main_arg1)) :=
    (Cert.KernelIdeal.Carry.after_call3 m ρ c main_v26 (by decide) (by decide) (by decide) (by decide) (by decide) (by decide) (by decide)).trans (Cert.KernelIdeal.Host0.norm_eq m ρ c)
  generalize W8 m ρ c = W at hT e3 e6 e26 ⊢
  after_results_simp
  rw [hT, e3, e6, e26]
  rfl

end Cert.KernelIdeal.Host4

end
-- ==== Proof.KHost5.lean ====
/-
  The aggregated features that pallas_call 5 reads: the host lines between pallas_call 4 and pallas_call 5 gather the
  previous result's rows at the edge sources, scale each gathered row by its edge's normalization, and add the rows
  into an all-zero array at the edge targets. The index vectors and the normalization are those computed before the
  first call, so the whole stretch is the reference's aggregation stage applied to the previous result.
-/
import proofs.«103818_j50783693308233_1_alg».proof.Proof.Gen.KernelIdeal.Frame
import proofs.«103818_j50783693308233_1_alg».proof.Proof.Gen.ReferenceIdeal.Read
import proofs.«103818_j50783693308233_1_alg».proof.Proof.KHost0
import proofs.«103818_j50783693308233_1_alg».proof.Proof.KCarry
import Idealize.ShloMosaic.Lib.StableHlo.Run

set_option maxRecDepth 16384

noncomputable section

namespace Cert.KernelIdeal.Host5

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

set_option maxHeartbeats 4000000 in
/-- The features entering pallas_call 5 are the reference's aggregation of whatever pallas_call 4 left. -/
theorem features (c : Dev nD) (T : FVec Ideal Cert.ReferenceIdeal.S50000x512 .f32)
    (hT : W10 m ρ c (Proc.devRef .tc main_v90) = T) :
    W11 m ρ c (Proc.devRef .tc main_v103)
      = Host.scatterAdd (F := Ideal) (φ := .f32) Cert.ReferenceIdeal.scatter_S50000x512_S210000x1_S210000x512_1_0_0_1
          (Cert.ReferenceIdeal.Read.val_main_v110 (F := Ideal))
          (Cert.ReferenceIdeal.Read.val_main_v111 (F := Ideal) (m ((c : Thread nD τ).loc main_arg1)))
          (mulf (F := Ideal) (φ := .f32) (Host.gather (α := Ideal .f32) Cert.ReferenceIdeal.gather_S50000x512_S210000x1_S210000x512_1_0_n_n_0_1_1512 T
              (Cert.ReferenceIdeal.Read.val_main_v105 (F := Ideal) (m ((c : Thread nD τ).loc main_arg1))))
            (Cert.ReferenceIdeal.Read.val_main_v108 (F := Ideal) (m ((c : Thread nD τ).loc main_arg1)))) := by
  show StableHlo.after hostOps5 (W10 m ρ c) (Proc.devRef .tc main_v103) = _
  have e3 : W10 m ρ c (Proc.devRef .tc main_v3) = Cert.ReferenceIdeal.Read.val_main_v3 (F := Ideal) (m ((c : Thread nD τ).loc main_arg1)) :=
    (Cert.KernelIdeal.Carry.after_call4 m ρ c main_v3 (by decide) (by decide) (by decide) (by decide) (by decide) (by decide) (by decide) (by decide) (by decide)).trans (Cert.KernelIdeal.Host0.src_eq m ρ c)
  have e6 : W10 m ρ c (Proc.devRef .tc main_v6) = Cert.ReferenceIdeal.Read.val_main_v6 (F := Ideal) (m ((c : Thread nD τ).loc main_arg1)) :=
    (Cert.KernelIdeal.Carry.after_call4 m ρ c main_v6 (by decide) (by decide) (by decide) (by decide) (by decide) (by decide) (by decide) (by decide) (by decide)).trans (Cert.KernelIdeal.Host0.dst_eq m ρ c)
  have e26 : W10 m ρ c (Proc.devRef .tc main_v26) = Cert.ReferenceIdeal.Read.val_main_v26 (F := Ideal) (m ((c : Thread nD τ).loc main_arg1)) :=
    (Cert.KernelIdeal.Carry.after_call4 m ρ c main_v26 (by decide) (by decide) (by decide) (by decide) (by decide) (by decide) (by decide) (by decide) (by decide)).trans (Cert.KernelIdeal.Host0.norm_eq m ρ c)
  generalize W10 m ρ c = W at hT e3 e6 e26 ⊢
  after_results_simp
  rw [hT, e3, e6, e26]
  rfl

end Cert.KernelIdeal.Host5

end
-- ==== Proof.RDense.lean ====
/-
  The reference program's dense stages, entry by entry.

  Each graph-convolution layer of the reference adds a bias to the aggregated features, rectifies, and multiplies by
  the next weight matrix; the head adds a bias, rectifies, multiplies, adds a bias, rectifies, multiplies and adds a
  last bias. Read at one entry these are the matrix product, the biased rectifier and the biased sum of LibDenseRows.lean,
  applied to the stage that aggregates the previous layer's output.
-/
import proofs.«103818_j50783693308233_1_alg».proof.Proof.Gen.ReferenceIdeal.Read
import proofs.«103818_j50783693308233_1_alg».proof.Proof.LibDenseRows

set_option maxRecDepth 16384

noncomputable section

namespace Cert.ReferenceIdeal.DenseStages

open Cert.ReferenceIdeal Cert.ReferenceIdeal.Gen Cert.ReferenceIdeal.Read Idealize.ShloMosaic Idealize.ShloMosaic.TcCoe
open Idealize.ShloMosaic.ValueIdx

/-- The first product: the input features times the first weight matrix. -/
theorem product0 (x0 : (⟨S50000x1022, .f32⟩ : BufTy).Contents (Elt Ideal)) (x2 : (⟨S1022x1024, .f32⟩ : BufTy).Contents (Elt Ideal)) :
    val_main_v27 (F := Ideal) x0 x2 = Cert.Dense.mm (N := 50000) (K := 1022) (C := 1024) x0 x2 := by
  funext i
  obtain ⟨p, q, rfl⟩ : ∃ (p : Fin 50000) (q : Fin 1024), i = ix2 p q := ⟨i 0, i 1, eq_ix2 i⟩
  unfold val_main_v27
  exact Cert.Dense.hostProduct_apply 50000 1022 1024 none x0 x2 p q

/-- The first layer's output, biased and rectified, times the second weight matrix. -/
theorem layer1 (x0 : (⟨S50000x1022, .f32⟩ : BufTy).Contents (Elt Ideal)) (x1 : (⟨S2x160000, .i32⟩ : BufTy).Contents (Elt Ideal)) (x2 : (⟨S1022x1024, .f32⟩ : BufTy).Contents (Elt Ideal)) (x3 : (⟨S1024, .f32⟩ : BufTy).Contents (Elt Ideal)) (x4 : (⟨S1024x512, .f32⟩ : BufTy).Contents (Elt Ideal)) :
    val_main_v45 (F := Ideal) x0 x1 x2 x3 x4
      = Cert.Dense.mm (N := 50000) (K := 1024) (C := 512)
          (Cert.Dense.act (N := 50000) (K := 1024) (val_main_v40 (F := Ideal) x0 x1 x2) x3) x4 := by
  funext i
  obtain ⟨p, q, rfl⟩ : ∃ (p : Fin 50000) (q : Fin 512), i = ix2 p q := ⟨i 0, i 1, eq_ix2 i⟩
  unfold val_main_v45 val_main_v44 val_main_v43 val_main_v42 val_main_v41 val_main_call0_v0 val_main_call0_cst
  generalize val_main_v40 (F := Ideal) x0 x1 x2 = A
  refine ((Cert.Dense.hostProduct_apply 50000 1024 512 none _ x4 p q).trans ?_).trans (Cert.Dense.mm_apply _ _ p q).symm
  refine Finset.sum_congr rfl fun k _ => ?_
  refine congrArg (· * x4 (ix2 k q)) ?_
  refine (Cert.Dense.hostRelu_apply 50000 1024 _ _ (ix2 p k)).trans ?_
  refine congrArg (fun z => max z 0) ?_
  exact Cert.Dense.hostAddRow_apply 50000 1024 _ _ A x3 p k

/-- The second layer's output, biased and rectified, times the third weight matrix. -/
theorem layer2 (x0 : (⟨S50000x1022, .f32⟩ : BufTy).Contents (Elt Ideal)) (x1 : (⟨S2x160000, .i32⟩ : BufTy).Contents (Elt Ideal)) (x2 : (⟨S1022x1024, .f32⟩ : BufTy).Contents (Elt Ideal)) (x3 : (⟨S1024, .f32⟩ : BufTy).Contents (Elt Ideal)) (x4 : (⟨S1024x512, .f32⟩ : BufTy).Contents (Elt Ideal)) (x5 : (⟨S512, .f32⟩ : BufTy).Contents (Elt Ideal)) (x6 : (⟨S512x512, .f32⟩ : BufTy).Contents (Elt Ideal)) :
    val_main_v63 (F := Ideal) x0 x1 x2 x3 x4 x5 x6
      = Cert.Dense.mm (N := 50000) (K := 512) (C := 512)
          (Cert.Dense.act (N := 50000) (K := 512) (val_main_v58 (F := Ideal) x0 x1 x2 x3 x4) x5) x6 := by
  funext i
  obtain ⟨p, q, rfl⟩ : ∃ (p : Fin 50000) (q : Fin 512), i = ix2 p q := ⟨i 0, i 1, eq_ix2 i⟩
  unfold val_main_v63 val_main_v62 val_main_v61 val_main_v60 val_main_v59 val_main_call1_v0 val_main_call1_cst
  generalize val_main_v58 (F := Ideal) x0 x1 x2 x3 x4 = A
  refine ((Cert.Dense.hostProduct_apply 50000 512 512 none _ x6 p q).trans ?_).trans (Cert.Dense.mm_apply _ _ p q).symm
  refine Finset.sum_congr rfl fun k _ => ?_
  refine congrArg (· * x6 (ix2 k q)) ?_
  refine (Cert.Dense.hostRelu_apply 50000 512 _ _ (ix2 p k)).trans ?_
  refine congrArg (fun z => max z 0) ?_
  exact Cert.Dense.hostAddRow_apply 50000 512 _ _ A x5 p k

/-- The third layer's output, biased and rectified, times the fourth weight matrix. -/
theorem layer3 (x0 : (⟨S50000x1022, .f32⟩ : BufTy).Contents (Elt Ideal)) (x1 : (⟨S2x160000, .i32⟩ : BufTy).Contents (Elt Ideal)) (x2 : (⟨S1022x1024, .f32⟩ : BufTy).Contents (Elt Ideal)) (x3 : (⟨S1024, .f32⟩ : BufTy).Contents (Elt Ideal)) (x4 : (⟨S1024x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) :
    val_main_v81 (F := Ideal) x0 x1 x2 x3 x4 x5 x6 x7 x8
      = Cert.Dense.mm (N := 50000) (K := 512) (C := 512)
          (Cert.Dense.act (N := 50000) (K := 512) (val_main_v76 (F := Ideal) x0 x1 x2 x3 x4 x5 x6) x7) x8 := by
  funext i
  obtain ⟨p, q, rfl⟩ : ∃ (p : Fin 50000) (q : Fin 512), i = ix2 p q := ⟨i 0, i 1, eq_ix2 i⟩
  unfold val_main_v81 val_main_v80 val_main_v79 val_main_v78 val_main_v77 val_main_call2_v0 val_main_call2_cst
  generalize val_main_v76 (F := Ideal) x0 x1 x2 x3 x4 x5 x6 = A
  refine ((Cert.Dense.hostProduct_apply 50000 512 512 none _ x8 p q).trans ?_).trans (Cert.Dense.mm_apply _ _ p q).symm
  refine Finset.sum_congr rfl fun k _ => ?_
  refine congrArg (· * x8 (ix2 k q)) ?_
  refine (Cert.Dense.hostRelu_apply 50000 512 _ _ (ix2 p k)).trans ?_
  refine congrArg (fun z => max z 0) ?_
  exact Cert.Dense.hostAddRow_apply 50000 512 _ _ A x7 p k

/-- The fourth layer's output, biased and rectified, times the fifth weight matrix. -/
theorem layer4 (x0 : (⟨S50000x1022, .f32⟩ : BufTy).Contents (Elt Ideal)) (x1 : (⟨S2x160000, .i32⟩ : BufTy).Contents (Elt Ideal)) (x2 : (⟨S1022x1024, .f32⟩ : BufTy).Contents (Elt Ideal)) (x3 : (⟨S1024, .f32⟩ : BufTy).Contents (Elt Ideal)) (x4 : (⟨S1024x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) :
    val_main_v99 (F := Ideal) x0 x1 x2 x3 x4 x5 x6 x7 x8 x9 x10
      = Cert.Dense.mm (N := 50000) (K := 512) (C := 512)
          (Cert.Dense.act (N := 50000) (K := 512) (val_main_v94 (F := Ideal) x0 x1 x2 x3 x4 x5 x6 x7 x8) x9) x10 := by
  funext i
  obtain ⟨p, q, rfl⟩ : ∃ (p : Fin 50000) (q : Fin 512), i = ix2 p q := ⟨i 0, i 1, eq_ix2 i⟩
  unfold val_main_v99 val_main_v98 val_main_v97 val_main_v96 val_main_v95 val_main_call3_v0 val_main_call3_cst
  generalize val_main_v94 (F := Ideal) x0 x1 x2 x3 x4 x5 x6 x7 x8 = A
  refine ((Cert.Dense.hostProduct_apply 50000 512 512 none _ x10 p q).trans ?_).trans (Cert.Dense.mm_apply _ _ p q).symm
  refine Finset.sum_congr rfl fun k _ => ?_
  refine congrArg (· * x10 (ix2 k q)) ?_
  refine (Cert.Dense.hostRelu_apply 50000 512 _ _ (ix2 p k)).trans ?_
  refine congrArg (fun z => max z 0) ?_
  exact Cert.Dense.hostAddRow_apply 50000 512 _ _ A x9 p k

/-- The head: the fifth layer's output biased and rectified, then two biased products with a rectifier between. -/
theorem head (x0 : (⟨S50000x1022, .f32⟩ : BufTy).Contents (Elt Ideal)) (x1 : (⟨S2x160000, .i32⟩ : BufTy).Contents (Elt Ideal)) (x2 : (⟨S1022x1024, .f32⟩ : BufTy).Contents (Elt Ideal)) (x3 : (⟨S1024, .f32⟩ : BufTy).Contents (Elt Ideal)) (x4 : (⟨S1024x512, .f32⟩ : BufTy).Contents (Elt Ideal)) (x5 : (⟨S512, .f32⟩ : BufTy).Contents (Elt Ideal)) (x6 : (⟨S512x512, .f32⟩ : BufTy).Contents (Elt Ideal)) (x7 : (⟨S512, .f32⟩ : BufTy).Contents (Elt Ideal)) (x8 : (⟨S512x512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512x75, .f32⟩ : BufTy).Contents (Elt Ideal)) (x13 : (⟨S75, .f32⟩ : BufTy).Contents (Elt Ideal)) (x14 : (⟨S75x11, .f32⟩ : BufTy).Contents (Elt Ideal)) (x15 : (⟨S11, .f32⟩ : BufTy).Contents (Elt Ideal)) :
    val_main_v125 (F := Ideal) x0 x1 x2 x3 x4 x5 x6 x7 x8 x9 x10 x11 x12 x13 x14 x15
      = Cert.Dense.addRow (N := 50000) (K := 11)
          (Cert.Dense.mm (N := 50000) (K := 75) (C := 11)
            (Cert.Dense.act (N := 50000) (K := 75)
              (Cert.Dense.mm (N := 50000) (K := 512) (C := 75)
                (Cert.Dense.act (N := 50000) (K := 512) (val_main_v112 (F := Ideal) x0 x1 x2 x3 x4 x5 x6 x7 x8 x9 x10) x11) x12)
              x13)
            x14)
          x15 := by
  funext i
  obtain ⟨p, q, rfl⟩ : ∃ (p : Fin 50000) (q : Fin 11), i = ix2 p q := ⟨i 0, i 1, eq_ix2 i⟩
  unfold val_main_v125 val_main_v124 val_main_v123 val_main_v122 val_main_v121 val_main_v120 val_main_v119 val_main_v118
    val_main_v117 val_main_v116 val_main_v115 val_main_v114 val_main_v113 val_main_call4_v0 val_main_call4_cst
    val_main_call5_v0 val_main_call5_cst
  generalize val_main_v112 (F := Ideal) x0 x1 x2 x3 x4 x5 x6 x7 x8 x9 x10 = A
  refine ((Cert.Dense.hostAddRow_apply 50000 11 _ _ _ x15 p q).trans ?_).trans (Cert.Dense.addRow_apply _ x15 p q).symm
  refine congrArg (· + x15 (ix1 q)) ?_
  refine ((Cert.Dense.hostProduct_apply 50000 75 11 none _ x14 p q).trans ?_).trans (Cert.Dense.mm_apply _ _ p q).symm
  refine Finset.sum_congr rfl fun j _ => ?_
  refine congrArg (· * x14 (ix2 j q)) ?_
  refine (Cert.Dense.hostRelu_apply 50000 75 _ _ (ix2 p j)).trans ?_
  refine congrArg (fun z => max z 0) ?_
  refine ((Cert.Dense.hostAddRow_apply 50000 75 _ _ _ x13 p j).trans ?_).trans (Cert.Dense.addRow_apply _ x13 p j).symm
  refine congrArg (· + x13 (ix1 j)) ?_
  refine ((Cert.Dense.hostProduct_apply 50000 512 75 none _ x12 p j).trans ?_).trans (Cert.Dense.mm_apply _ _ p j).symm
  refine Finset.sum_congr rfl fun k _ => ?_
  refine congrArg (· * x12 (ix2 k j)) ?_
  refine (Cert.Dense.hostRelu_apply 50000 512 _ _ (ix2 p k)).trans ?_
  refine congrArg (fun z => max z 0) ?_
  exact Cert.Dense.hostAddRow_apply 50000 512 _ _ A x11 p k

end Cert.ReferenceIdeal.DenseStages

end
-- ==== Proof.KValue.lean ====
/-
  The kernel program's result, stage by stage, as the reference program's stages of the same arguments.

  The program alternates dense stages on the TensorCore (six pallas_calls) with aggregation stages on the host (five
  stretches of gather, scale, scatter-add). Each dense stage's result array is the matrix-product form of LibDenseRows.lean
  applied to the arrays the call finds (KLayer0 … KLayer5); each aggregation stretch is the reference's aggregation
  stage of the previous result (KHost1 … KHost5); the biases and weights a call finds are the arguments, untouched
  since the launch (KCarry, KHost0). The reference's dense stages have the same matrix-product form (RDense). So,
  by induction along the program, every boundary value is the reference's stage of the arguments.
-/
import proofs.«103818_j50783693308233_1_alg».proof.Proof.KLayer0
import proofs.«103818_j50783693308233_1_alg».proof.Proof.KLayer1
import proofs.«103818_j50783693308233_1_alg».proof.Proof.KLayer2
import proofs.«103818_j50783693308233_1_alg».proof.Proof.KLayer3
import proofs.«103818_j50783693308233_1_alg».proof.Proof.KLayer4
import proofs.«103818_j50783693308233_1_alg».proof.Proof.KLayer5
import proofs.«103818_j50783693308233_1_alg».proof.Proof.KHost0
import proofs.«103818_j50783693308233_1_alg».proof.Proof.KCarry
import proofs.«103818_j50783693308233_1_alg».proof.Proof.KHost1
import proofs.«103818_j50783693308233_1_alg».proof.Proof.KHost2
import proofs.«103818_j50783693308233_1_alg».proof.Proof.KHost3
import proofs.«103818_j50783693308233_1_alg».proof.Proof.KHost4
import proofs.«103818_j50783693308233_1_alg».proof.Proof.KHost5
import proofs.«103818_j50783693308233_1_alg».proof.Proof.RDense

set_option maxRecDepth 16384

noncomputable section

namespace Cert.KernelIdeal.Stages

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- pallas_call 0 leaves the reference's first product. -/
theorem out0 (c : Dev nD) :
    W2 m ρ c (Proc.devRef .tc main_v34) = Cert.ReferenceIdeal.Read.val_main_v27 (F := Ideal) (m ((c : Thread nD τ).loc main_arg0)) (m ((c : Thread nD τ).loc main_arg2)) := by
  refine (W2_arr m ρ c 2).trans ((Cert.KernelIdeal.Layer0.final (V1 m ρ) c).trans ?_)
  unfold Cert.KernelIdeal.Layer0.G
  rw [show V1 m ρ c main_arg0 = m ((c : Thread nD τ).loc main_arg0) from Cert.KernelIdeal.Host0.arg0_eq m ρ c,
    show V1 m ρ c main_arg2 = m ((c : Thread nD τ).loc main_arg2) from Cert.KernelIdeal.Host0.arg2_eq m ρ c]
  exact (Cert.ReferenceIdeal.DenseStages.product0 _ _).symm

/-- The host lines after it leave the reference's first aggregation. -/
theorem feat1 (c : Dev nD) :
    W3 m ρ c (Proc.devRef .tc main_v47) = Cert.ReferenceIdeal.Read.val_main_v40 (F := Ideal) (m ((c : Thread nD τ).loc main_arg0)) (m ((c : Thread nD τ).loc main_arg1)) (m ((c : Thread nD τ).loc main_arg2)) :=
  Cert.KernelIdeal.Host1.features m ρ c _ (out0 m ρ c)

/-- pallas_call 1 leaves the reference's second product. -/
theorem out1 (c : Dev nD) :
    W4 m ρ c (Proc.devRef .tc main_v48) = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 3).trans ((Cert.KernelIdeal.Layer1.final (V3 m ρ) c).trans ?_)
  unfold Cert.KernelIdeal.Layer1.G
  rw [show V3 m ρ c main_v47 = _ from feat1 m ρ c,
    show V3 m ρ c main_v27 = _ from (Cert.KernelIdeal.Carry.before_call1 m ρ c main_v27 (by decide) (by decide)).trans (Cert.KernelIdeal.Host0.bias27_eq m ρ c),
    show V3 m ρ c main_arg4 = _ from (Cert.KernelIdeal.Carry.before_call1 m ρ c main_arg4 (by decide) (by decide)).trans (Cert.KernelIdeal.Host0.arg4_eq m ρ c)]
  rw [Cert.Dense.actRow_cast]
  exact (Cert.ReferenceIdeal.DenseStages.layer1 _ _ _ _ _).symm

/-- The host lines before pallas_call 2 leave the reference's aggregation of the previous product. -/
theorem feat2 (c : Dev nD) :
    W5 m ρ c (Proc.devRef .tc main_v61) = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  Cert.KernelIdeal.Host2.features m ρ c _ (out1 m ρ c)

/-- pallas_call 2 leaves the reference's next product. -/
theorem out2 (c : Dev nD) :
    W6 m ρ c (Proc.devRef .tc main_v62) = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 3).trans ((Cert.KernelIdeal.Layer2.final (V5 m ρ) c).trans ?_)
  unfold Cert.KernelIdeal.Layer2.G
  rw [show V5 m ρ c main_v61 = _ from feat2 m ρ c,
    show V5 m ρ c main_v28 = _ from (Cert.KernelIdeal.Carry.before_call2 m ρ c main_v28 (by decide) (by decide) (by decide) (by decide)).trans (Cert.KernelIdeal.Host0.bias28_eq m ρ c),
    show V5 m ρ c main_arg6 = _ from (Cert.KernelIdeal.Carry.before_call2 m ρ c main_arg6 (by decide) (by decide) (by decide) (by decide)).trans (Cert.KernelIdeal.Host0.arg6_eq m ρ c)]
  rw [Cert.Dense.actRow_cast]
  exact (Cert.ReferenceIdeal.DenseStages.layer2 _ _ _ _ _ _ _).symm

/-- The host lines before pallas_call 3 leave the reference's aggregation of the previous product. -/
theorem feat3 (c : Dev nD) :
    W7 m ρ c (Proc.devRef .tc main_v75) = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  Cert.KernelIdeal.Host3.features m ρ c _ (out2 m ρ c)

/-- pallas_call 3 leaves the reference's next product. -/
theorem out3 (c : Dev nD) :
    W8 m ρ c (Proc.devRef .tc main_v76) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 3).trans ((Cert.KernelIdeal.Layer3.final (V7 m ρ) c).trans ?_)
  unfold Cert.KernelIdeal.Layer3.G
  rw [show V7 m ρ c main_v75 = _ from feat3 m ρ c,
    show V7 m ρ c main_v29 = _ from (Cert.KernelIdeal.Carry.before_call3 m ρ c main_v29 (by decide) (by decide) (by decide) (by decide) (by decide) (by decide)).trans (Cert.KernelIdeal.Host0.bias29_eq m ρ c),
    show V7 m ρ c main_arg8 = _ from (Cert.KernelIdeal.Carry.before_call3 m ρ c main_arg8 (by decide) (by decide) (by decide) (by decide) (by decide) (by decide)).trans (Cert.KernelIdeal.Host0.arg8_eq m ρ c)]
  rw [Cert.Dense.actRow_cast]
  exact (Cert.ReferenceIdeal.DenseStages.layer3 _ _ _ _ _ _ _ _ _).symm

/-- The host lines before pallas_call 4 leave the reference's aggregation of the previous product. -/
theorem feat4 (c : Dev nD) :
    W9 m ρ c (Proc.devRef .tc main_v89) = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  Cert.KernelIdeal.Host4.features m ρ c _ (out3 m ρ c)

/-- pallas_call 4 leaves the reference's next product. -/
theorem out4 (c : Dev nD) :
    W10 m ρ c (Proc.devRef .tc main_v90) = Cert.ReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W10_arr m ρ c 3).trans ((Cert.KernelIdeal.Layer4.final (V9 m ρ) c).trans ?_)
  unfold Cert.KernelIdeal.Layer4.G
  rw [show V9 m ρ c main_v89 = _ from feat4 m ρ c,
    show V9 m ρ c main_v30 = _ from (Cert.KernelIdeal.Carry.before_call4 m ρ c main_v30 (by decide) (by decide) (by decide) (by decide) (by decide) (by decide) (by decide) (by decide)).trans (Cert.KernelIdeal.Host0.bias30_eq m ρ c),
    show V9 m ρ c main_arg10 = _ from (Cert.KernelIdeal.Carry.before_call4 m ρ c main_arg10 (by decide) (by decide) (by decide) (by decide) (by decide) (by decide) (by decide) (by decide)).trans (Cert.KernelIdeal.Host0.arg10_eq m ρ c)]
  rw [Cert.Dense.actRow_cast]
  exact (Cert.ReferenceIdeal.DenseStages.layer4 _ _ _ _ _ _ _ _ _ _ _).symm

/-- The host lines before the last pallas_call leave the reference's last aggregation. -/
theorem feat5 (c : Dev nD) :
    W11 m ρ c (Proc.devRef .tc main_v103) = Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  Cert.KernelIdeal.Host5.features m ρ c _ (out4 m ρ c)

/-- The last pallas_call leaves the reference's result. -/
theorem out5 (c : Dev nD) :
    W12 m ρ c (Proc.devRef .tc main_v104) = Cert.ReferenceIdeal.Read.val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W12_arr m ρ c 6).trans ((Cert.KernelIdeal.Layer5.final (V11 m ρ) c).trans ?_)
  unfold Cert.KernelIdeal.Layer5.G
  rw [show V11 m ρ c main_v103 = _ from feat5 m ρ c,
    show V11 m ρ c main_v31 = _ from (Cert.KernelIdeal.Carry.before_call5 m ρ c main_v31 (by decide) (by decide) (by decide) (by decide) (by decide) (by decide) (by decide) (by decide) (by decide) (by decide)).trans (Cert.KernelIdeal.Host0.bias31_eq m ρ c),
    show V11 m ρ c main_arg12 = _ from (Cert.KernelIdeal.Carry.before_call5 m ρ c main_arg12 (by decide) (by decide) (by decide) (by decide) (by decide) (by decide) (by decide) (by decide) (by decide) (by decide)).trans (Cert.KernelIdeal.Host0.arg12_eq m ρ c),
    show V11 m ρ c main_v32 = _ from (Cert.KernelIdeal.Carry.before_call5 m ρ c main_v32 (by decide) (by decide) (by decide) (by decide) (by decide) (by decide) (by decide) (by decide) (by decide) (by decide)).trans (Cert.KernelIdeal.Host0.bias32_eq m ρ c),
    show V11 m ρ c main_arg14 = _ from (Cert.KernelIdeal.Carry.before_call5 m ρ c main_arg14 (by decide) (by decide) (by decide) (by decide) (by decide) (by decide) (by decide) (by decide) (by decide) (by decide)).trans (Cert.KernelIdeal.Host0.arg14_eq m ρ c),
    show V11 m ρ c main_v33 = _ from (Cert.KernelIdeal.Carry.before_call5 m ρ c main_v33 (by decide) (by decide) (by decide) (by decide) (by decide) (by decide) (by decide) (by decide) (by decide) (by decide)).trans (Cert.KernelIdeal.Host0.bias33_eq m ρ c)]
  rw [Cert.Dense.actRow_cast, Cert.Dense.actRow_cast, Cert.Dense.addRowRow_cast]
  exact (Cert.ReferenceIdeal.DenseStages.head _ _ _ _ _ _ _ _ _ _ _ _ _ _ _ _).symm

end Cert.KernelIdeal.Stages

end
-- ==== Proof.lean ====
/-
  A six-layer graph network — five graph convolutions (dense product, symmetric-normalized neighbourhood sum with
  self-loops, bias, rectifier) and a two-layer head — computed two ways over the extended reals.

  The kernel program runs each dense product on the TensorCore, block of 1000 rows by block, with the previous
  layer's bias and rectifier fused in front of it, and leaves the neighbourhood sums (gather at the edge sources,
  scale by the edge normalization, scatter-add at the edge targets) to host operations between the calls. The
  reference program is one straight line of host operations: product, the same gather / scale / scatter-add, bias,
  rectifier, layer after layer. Narrowing to half precision is the identity on exact values, a matrix-unit product
  into a zero accumulator and a host dot product are the same sum, and a block of rows of a product depends on
  those rows of the left operand only; so the two programs apply the same operations in the same order, and no
  algebraic law — hence no finiteness of the inputs — is needed to identify their results.

  The frames of the two kernel programs are the generated ones; the reference's frame is its generated run with the
  result dropped; the idealization rewrote nothing, so it is preserved trivially; the two results agree by the
  stage-by-stage identification in KValue.lean.
-/
import proofs.«103818_j50783693308233_1_alg».proof.Defs
import proofs.«103818_j50783693308233_1_alg».proof.Proof.Gen.Kernel
import proofs.«103818_j50783693308233_1_alg».proof.Proof.Gen.Kernel.Skeleton
import proofs.«103818_j50783693308233_1_alg».proof.Proof.Gen.Kernel.Launch
import proofs.«103818_j50783693308233_1_alg».proof.Proof.Gen.Kernel.Points
import proofs.«103818_j50783693308233_1_alg».proof.Proof.Gen.Kernel.Frame
import proofs.«103818_j50783693308233_1_alg».proof.Proof.Gen.KernelIdeal
import proofs.«103818_j50783693308233_1_alg».proof.Proof.Gen.KernelIdeal.Skeleton
import proofs.«103818_j50783693308233_1_alg».proof.Proof.Gen.KernelIdeal.Launch
import proofs.«103818_j50783693308233_1_alg».proof.Proof.Gen.KernelIdeal.Points
import proofs.«103818_j50783693308233_1_alg».proof.Proof.Gen.KernelIdeal.Frame
import proofs.«103818_j50783693308233_1_alg».proof.Proof.Gen.ReferenceIdeal
import proofs.«103818_j50783693308233_1_alg».proof.Proof.Gen.Pre_finite_inputs
import proofs.«103818_j50783693308233_1_alg».proof.Proof.Gen.ReferenceIdeal.Run
import proofs.«103818_j50783693308233_1_alg».proof.Proof.Gen.ReferenceIdeal.Read
import proofs.«103818_j50783693308233_1_alg».proof.Proof.KRun
import proofs.«103818_j50783693308233_1_alg».proof.Proof.KValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's last stage of the (agreeing) arguments in their result buffers. -/
theorem algebraic : Cert.algebraic_KernelIdeal_ReferenceIdeal := by
  intro m ρ m' ρ' _ hagree
  refine ⟨fun c => Cert.ReferenceIdeal.Read.val_main_v125 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)),
    ?_, ?_⟩
  · exact (θ_run Cert.KernelIdeal.defs _ _).mono
      (fun r h c => ⟨(h c).1.trans (Cert.KernelIdeal.Stages.out5 m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    rw [Cert.ReferenceIdeal.Read.val_main_v125_eq, e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
